-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S768x2304 : Shape := ⟨2, ![768, 2304]⟩
abbrev S2304 : Shape := ⟨1, ![2304]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S2304 : S_.BroadcastsInDim S2304 (![] : Fin 0 → Fin S2304.rank)
  reducesTo_S2304_S_d0 : S2304.ReducesTo [0] S_

variable [Facts]

def fn {F : FTy → Type} [FloatOps F] (main_arg0 : FVec F S8x1024x768 .f32) (main_arg1 : FVec F S768x2304 .f32) (main_arg2 : FVec F S2304 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  main_v13
-- ==== Kernel.lean ====
abbrev S8x1024x768 : Shape := ⟨3, ![8, 1024, 768]⟩
abbrev S768x2304 : Shape := ⟨2, ![768, 2304]⟩
abbrev S2304 : Shape := ⟨1, ![2304]⟩
abbrev S768x12x64x3 : Shape := ⟨4, ![768, 12, 64, 3]⟩
abbrev S768x3x12x64 : Shape := ⟨4, ![768, 3, 12, 64]⟩
abbrev S12x64x3 : Shape := ⟨3, ![12, 64, 3]⟩
abbrev S3x12x64 : Shape := ⟨3, ![3, 12, 64]⟩
abbrev S1x2304 : Shape := ⟨2, ![1, 2304]⟩
abbrev S1x1024x768 : Shape := ⟨3, ![1, 1024, 768]⟩
abbrev S1024x2304 : Shape := ⟨2, ![1024, 2304]⟩
abbrev S1024x768 : Shape := ⟨2, ![1024, 768]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024x64 : Shape := ⟨3, ![1, 1024, 64]⟩

abbrev nBuf : Space → Nat
  | .hbm => 12
  | .vmem => 7
  | .smem => 0
  | _ => 0

abbrev bufTy : (tb : Table) → Fin (tcTables nBuf tb) → BufTy
  | .hbm, ⟨0, _⟩ => ⟨S8x1024x768, .f32⟩
  | .hbm, ⟨1, _⟩ => ⟨S768x2304, .f32⟩
  | .hbm, ⟨2, _⟩ => ⟨S2304, .f32⟩
  | .hbm, ⟨3, _⟩ => ⟨S768x12x64x3, .f32⟩
  | .hbm, ⟨4, _⟩ => ⟨S768x3x12x64, .f32⟩
  | .hbm, ⟨5, _⟩ => ⟨S768x2304, .f32⟩
  | .hbm, ⟨6, _⟩ => ⟨S12x64x3, .f32⟩
  | .hbm, ⟨7, _⟩ => ⟨S3x12x64, .f32⟩
  | .hbm, ⟨8, _⟩ => ⟨S2304, .f32⟩
  | .hbm, ⟨9, _⟩ => ⟨S768x2304, .bf16⟩
  | .hbm, ⟨10, _⟩ => ⟨S1x2304, .f32⟩
  | .hbm, ⟨11, _⟩ => ⟨S8x1024x768, .f32⟩
  | .local _ .vmem, ⟨0, _⟩ => ⟨S1x1024x768, .f32⟩
  | .local _ .vmem, ⟨1, _⟩ => ⟨S1x1024x768, .f32⟩
  | .local _ .vmem, ⟨2, _⟩ => ⟨S768x2304, .bf16⟩
  | .local _ .vmem, ⟨3, _⟩ => ⟨S1x2304, .f32⟩
  | .local _ .vmem, ⟨4, _⟩ => ⟨S1x1024x768, .f32⟩
  | .local _ .vmem, ⟨5, _⟩ => ⟨S1x1024x768, .f32⟩
  | .local _ .vmem, ⟨6, _⟩ => ⟨S1024x2304, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c12_i32 : BitVec 32 := 12#32
  let v13 : BitVec 32 := Scalar.addi c0_i32 c12_i32
  let c1_i32 : BitVec 32 := 1#32
  ⟨c0_i32, v13, c1_i32⟩
def k0_mult1 (k0_t1 : Fin k0_t1_loop.trips) : BitVec 32 :=
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v14 : BitVec 32 := Scalar.muli arg6 c1_i32_9
  let v15 : BitVec 32 := Scalar.addi c0_i32_10 v14
  let c64_i32 : BitVec 32 := 64#32
  let v16 : BitVec 32 := Scalar.muli v15 c64_i32
  v16
def k0_mult2 (k0_t1 : Fin k0_t1_loop.trips) : BitVec 32 :=
  let c768_i32 : BitVec 32 := 768#32
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v14 : BitVec 32 := Scalar.muli arg6 c1_i32_9
  let v15 : BitVec 32 := Scalar.addi c0_i32_10 v14
  let c64_i32 : BitVec 32 := 64#32
  let v16 : BitVec 32 := Scalar.muli v15 c64_i32
  let v17 : BitVec 32 := v16
  let v18 : BitVec 32 := Scalar.addi c768_i32 v17
  v18
def k0_mult3 (k0_t1 : Fin k0_t1_loop.trips) : BitVec 32 :=
  let c1536_i32 : BitVec 32 := 1536#32
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v14 : BitVec 32 := Scalar.muli arg6 c1_i32_9
  let v15 : BitVec 32 := Scalar.addi c0_i32_10 v14
  let c64_i32 : BitVec 32 := 64#32
  let v16 : BitVec 32 := Scalar.muli v15 c64_i32
  let v17 : BitVec 32 := v16
  let v20 : BitVec 32 := Scalar.addi c1536_i32 v17
  v20
def k0_off1 (k0_t1 : Fin k0_t1_loop.trips) : Fin 2 → Nat :=
  let c0_11 : Index := 0#32
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v14 : BitVec 32 := Scalar.muli arg6 c1_i32_9
  let v15 : BitVec 32 := Scalar.addi c0_i32_10 v14
  let c64_i32 : BitVec 32 := 64#32
  let v16 : BitVec 32 := Scalar.muli v15 c64_i32
  let v17 : BitVec 32 := v16
  let v22 : Index := Scalar.indexCast v17
  ![0, v22.toNat]
def k0_off2 (k0_t1 : Fin k0_t1_loop.trips) (c768_i32 : BitVec 32) : Fin 2 → Nat :=
  let c0_12 : Index := 0#32
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v14 : BitVec 32 := Scalar.muli arg6 c1_i32_9
  let v15 : BitVec 32 := Scalar.addi c0_i32_10 v14
  let c64_i32 : BitVec 32 := 64#32
  let v16 : BitVec 32 := Scalar.muli v15 c64_i32
  let v17 : BitVec 32 := v16
  let v18 : BitVec 32 := Scalar.addi c768_i32 v17
  let v19 : BitVec 32 := v18
  let v25 : Index := Scalar.indexCast v19
  ![0, v25.toNat]
def k0_off3 (k0_t1 : Fin k0_t1_loop.trips) : Fin 3 → Nat :=
  let c0_19 : Index := 0#32
  let c0_20 : Index := 0#32
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v14 : BitVec 32 := Scalar.muli arg6 c1_i32_9
  let v15 : BitVec 32 := Scalar.addi c0_i32_10 v14
  let c64_i32 : BitVec 32 := 64#32
  let v16 : BitVec 32 := Scalar.muli v15 c64_i32
  let v17 : BitVec 32 := v16
  let v45 : Index := Scalar.indexCast v17
  ![0, 0, v45.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S768x2304_S768x12x64x3 : S768x2304.ShapeCasts S768x12x64x3
  transposes_S768x12x64x3_S768x3x12x64_0_3_1_2 : S768x12x64x3.Transposes [0, 3, 1, 2] S768x3x12x64
  shapeCasts_S768x3x12x64_S768x2304 : S768x3x12x64.ShapeCasts S768x2304
  shapeCasts_S2304_S12x64x3 : S2304.ShapeCasts S12x64x3
  transposes_S12x64x3_S3x12x64_2_0_1 : S12x64x3.Transposes [2, 0, 1] S3x12x64
  shapeCasts_S3x12x64_S2304 : S3x12x64.ShapeCasts S2304
  bitsLt_bf16_f32 : FTy.bits .bf16 < FTy.bits .f32
  shapeCasts_S2304_S1x2304 : S2304.ShapeCasts S1x2304
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S1024x2304 : S1x2304.Broadcasts S1024x2304
  inb_S1024x2304_S1024x2304_0_0 : ∀ a, (![0, 0] : Fin 2 → Nat) a + S1024x2304.size a ≤ S1024x2304.size a
  h_S1024x2304 : 0 < S1024x2304.numel
  shapeCasts_S1024x2304_S1024x2304 : S1024x2304.ShapeCasts S1024x2304
  h_S1024x64 : 0 < S1024x64.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  h_S1x1024x64 : 0 < S1x1024x64.numel
  shapeCasts_S1x1024x64_S1024x64 : S1x1024x64.ShapeCasts S1024x64
  shapeCasts_S1024x64_S1x1024x64 : S1024x64.ShapeCasts S1x1024x64
  dot_S1024x768_S768x2304_S1024x2304_1_0_0_1_n_n_wf : DotDims.WF S1024x768 S768x2304 S1024x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  k0_t1_ok : k0_t1_loop.OK
  k0_mult1_dvd : ∀ k0_t1 : Fin k0_t1_loop.trips, 64 ∣ (k0_mult1 k0_t1).toNat
  k0_mult2_dvd : ∀ k0_t1 : Fin k0_t1_loop.trips, 64 ∣ (k0_mult2 k0_t1).toNat
  k0_mult3_dvd : ∀ k0_t1 : Fin k0_t1_loop.trips, 64 ∣ (k0_mult3 k0_t1).toNat
  k0_off1_inb : ∀ k0_t1 : Fin k0_t1_loop.trips, ∀ a, (k0_off1 k0_t1) a + S1024x64.size a ≤ S1024x2304.size a
  k0_off2_inb : ∀ k0_t1 : Fin k0_t1_loop.trips, ∀ (r : Fin 2), ∀ a, (k0_off2 k0_t1 (BitVec.ofNat 32 (768 + 768 * r.val))) a + S1024x64.size a ≤ S1024x2304.size a
  k0_off3_inb : ∀ k0_t1 : Fin k0_t1_loop.trips, ∀ a, (k0_off3 k0_t1) a + S1x1024x64.size a ≤ S1x1024x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S8x1024x768.size a
  hwx0_3 : ∀ i : grid0.Coords, EltTy.bits .f32 = 32 ∨ (Rect.block (s := S8x1024x768) S1x1024x768.size (cc0_transform_3 i) (hinb0_3 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x768 : Shape := ⟨3, ![8, 1024, 768]⟩
abbrev S768x2304 : Shape := ⟨2, ![768, 2304]⟩
abbrev S2304 : Shape := ⟨1, ![2304]⟩
abbrev S8x1024x2304 : Shape := ⟨3, ![8, 1024, 2304]⟩
abbrev S1x1x2304 : Shape := ⟨3, ![1, 1, 2304]⟩
abbrev S8x1024x12x64x3 : Shape := ⟨5, ![8, 1024, 12, 64, 3]⟩
abbrev S8x1024x12x64x1 : Shape := ⟨5, ![8, 1024, 12, 64, 1]⟩
abbrev S8x1024x12x64 : Shape := ⟨4, ![8, 1024, 12, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S768x2304, .f32⟩
  | .hbm, ⟨2, _⟩ => ⟨S2304, .f32⟩
  | .hbm, ⟨3, _⟩ => ⟨S8x1024x2304, .f32⟩
  | .hbm, ⟨4, _⟩ => ⟨S1x1x2304, .f32⟩
  | .hbm, ⟨5, _⟩ => ⟨S8x1024x2304, .f32⟩
  | .hbm, ⟨6, _⟩ => ⟨S8x1024x2304, .f32⟩
  | .hbm, ⟨7, _⟩ => ⟨S8x1024x12x64x3, .f32⟩
  | .hbm, ⟨8, _⟩ => ⟨S8x1024x12x64x1, .f32⟩
  | .hbm, ⟨9, _⟩ => ⟨S8x1024x12x64, .f32⟩
  | .hbm, ⟨10, _⟩ => ⟨S8x12x1024x64, .f32⟩
  | .hbm, ⟨11, _⟩ => ⟨S8x1024x12x64x1, .f32⟩
  | .hbm, ⟨12, _⟩ => ⟨S8x1024x12x64, .f32⟩
  | .hbm, ⟨13, _⟩ => ⟨S8x12x1024x64, .f32⟩
  | .hbm, ⟨14, _⟩ => ⟨S8x1024x12x64x1, .f32⟩
  | .hbm, ⟨15, _⟩ => ⟨S8x1024x12x64, .f32⟩
  | .hbm, ⟨16, _⟩ => ⟨S8x12x1024x64, .f32⟩
  | .hbm, ⟨17, _⟩ => ⟨S8x12x1024x1024, .f32⟩
  | .hbm, ⟨18, _⟩ => ⟨S_, .f32⟩
  | .hbm, ⟨19, _⟩ => ⟨S8x12x1024x1024, .f32⟩
  | .hbm, ⟨20, _⟩ => ⟨S8x12x1024x1024, .f32⟩
  | .hbm, ⟨21, _⟩ => ⟨S_, .f32⟩
  | .hbm, ⟨22, _⟩ => ⟨S8x12x1024, .f32⟩
  | .hbm, ⟨23, _⟩ => ⟨S_, .f32⟩
  | .hbm, ⟨24, _⟩ => ⟨S8x12x1024, .f32⟩
  | .hbm, ⟨25, _⟩ => ⟨S8x12x1024, .f32⟩
  | .hbm, ⟨26, _⟩ => ⟨S8x12x1024x1, .f32⟩
  | .hbm, ⟨27, _⟩ => ⟨S8x12x1024x1024, .f32⟩
  | .hbm, ⟨28, _⟩ => ⟨S8x12x1024x1024, .f32⟩
  | .hbm, ⟨29, _⟩ => ⟨S8x12x1024x1024, .f32⟩
  | .hbm, ⟨30, _⟩ => ⟨S_, .f32⟩
  | .hbm, ⟨31, _⟩ => ⟨S8x12x1024, .f32⟩
  | .hbm, ⟨32, _⟩ => ⟨S8x12x1024x1, .f32⟩
  | .hbm, ⟨33, _⟩ => ⟨S8x12x1024x1024, .f32⟩
  | .hbm, ⟨34, _⟩ => ⟨S8x12x1024x1024, .f32⟩
  | .hbm, ⟨35, _⟩ => ⟨S8x12x1024x64, .f32⟩
  | .hbm, ⟨36, _⟩ => ⟨S8x1024x12x64, .f32⟩
  | .hbm, ⟨37, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S8x1024x2304_0_1_2 : S1x1x2304.BroadcastsInDim S8x1024x2304 (![0, 1, 2] : Fin 3 → Fin S8x1024x2304.rank)
  shapeCasts_S8x1024x2304_S8x1024x12x64x3 : S8x1024x2304.ShapeCasts S8x1024x12x64x3
  slices_S8x1024x12x64x3_S8x1024x12x64x1_0_0_0_0_0 : S8x1024x12x64x3.Slices ![0, 0, 0, 0, 0] S8x1024x12x64x1
  shapeCasts_S8x1024x12x64x1_S8x1024x12x64 : S8x1024x12x64x1.ShapeCasts S8x1024x12x64
  transposes_S8x1024x12x64_S8x12x1024x64_0_2_1_3 : S8x1024x12x64.Transposes [0, 2, 1, 3] S8x12x1024x64
  slices_S8x1024x12x64x3_S8x1024x12x64x1_0_0_0_0_1 : S8x1024x12x64x3.Slices ![0, 0, 0, 0, 1] S8x1024x12x64x1
  slices_S8x1024x12x64x3_S8x1024x12x64x1_0_0_0_0_2 : S8x1024x12x64x3.Slices ![0, 0, 0, 0, 2] S8x1024x12x64x1
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  dot_S8x1024x768_S768x2304_S8x1024x2304_2_0_01_1_n_n_wf : DotDims.WF S8x1024x768 S768x2304 S8x1024x2304 [2] [0] [0, 1] [1] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]

variable [Facts₀]

def dot_S8x1024x768_S768x2304_S8x1024x2304_2_0_01_1_n_n : DotDims S8x1024x768 S768x2304 S8x1024x2304 where
  lhsContracting := [2]
  rhsContracting := [0]
  lhsNonContracting := [0, 1]
  rhsNonContracting := [1]
  lhsBatch := []
  rhsBatch := []
  wf := dot_S8x1024x768_S768x2304_S8x1024x2304_2_0_01_1_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf

class Facts : Prop extends Facts₀ where

variable [Facts]
-- ==== Proof.HeadStores.lean ====
/-
  What the kernel's body leaves in the output block, read at an index.

  The body first writes the whole projection Y (1024 × 2304) into its scratch buffer, then for each head h = 0 … 11
  loads three 1024 × 64 column bands of the scratch — the head's queries at column 64·h, keys at 768 + 64·h, values at
  1536 + 64·h — and stores the head's 1024 × 64 result into columns 64·h … 64·h + 63 of the output block. The twelve
  stores are to disjoint column bands, so an index of band h reads the head-h result, and that result is the body's
  per-head function of the three bands of Y itself (a load from the scratch after the whole store reads what was stored).
-/
import proofs.«118227_j16131897164364_2_alg».proof.Proof.Gen.KernelIdeal.Frame
import Idealize.ShloMosaic.Lib.Pipeline.Value

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.Sem

variable {F : FTy → Type} [FloatOps F]

/-- The band of the output block head k writes. -/
abbrev outBand (k : Fin k0_t1_loop.trips) : Rect S1x1024x768 := Rect.unit (k0_off3 k) S1x1024x64.size (k0_off3_inb k)
/-- The three bands of the projection head k reads: queries, keys, values. -/
abbrev qBand (k : Fin k0_t1_loop.trips) : Rect S1024x2304 := Rect.unit (k0_off1 k) S1024x64.size (k0_off1_inb k)
abbrev kBand (k : Fin k0_t1_loop.trips) : Rect S1024x2304 := Rect.unit (k0_off2 k 768#32) S1024x64.size (k0_off2_inb k 0)
abbrev vBand (k : Fin k0_t1_loop.trips) : Rect S1024x2304 := Rect.unit (k0_off2 k 1536#32) S1024x64.size (k0_off2_inb k 1)

/-- The piece head k stores, from the scratch contents X. -/
def headPiece (arg5 : Memref sig .tc .vmem S1024x2304 .f32) (X : BufTy.Contents (Elt F) arg5.view.ty)
    (k : Fin k0_t1_loop.trips) : View.Piece (Elt F) S1x1024x768 .f32 :=
  ⟨outBand k, k0_pay2 (View.readAt (Elt F) arg5.view (qBand k).toLoadRect X) (View.readAt (Elt F) arg5.view (kBand k).toLoadRect X)
      (View.readAt (Elt F) arg5.view (vBand k).toLoadRect X)⟩

/-- One trip of the loop stores exactly that piece. -/
theorem tripL_eq (𝒱 : Variants) (bd : Option 𝒱.V) (c : Dev nD) (i : grid0.Coords) (arg1 : Memref sig .tc .vmem S1x1024x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S1x1024x768 .f32) (harg4 : arg4.IsWhole) (arg5 : Memref sig .tc .vmem S1024x2304 .f32) (harg5 : arg5.IsWhole)
    (X : BufTy.Contents (Elt F) arg5.view.ty) (k : Fin k0_t1_loop.trips) :
    tripL_k0_t1 (F := F) 𝒱 c bd i arg1 harg1 arg2 harg2 arg3 harg3 arg4 harg4 arg5 harg5 X k = [headPiece arg5 X k] := by
  unfold tripL_k0_t1 trip_k0_t1
  dsimp only
  sl_unfold_words
  rfl

/-- The pieces stored by the trips before n are the head pieces of the heads below n. -/
theorem mem_pb (𝒱 : Variants) (bd : Option 𝒱.V) (c : Dev nD) (i : grid0.Coords) (arg1 : Memref sig .tc .vmem S1x1024x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S1x1024x768 .f32) (harg4 : arg4.IsWhole) (arg5 : Memref sig .tc .vmem S1024x2304 .f32) (harg5 : arg5.IsWhole)
    (X : BufTy.Contents (Elt F) arg5.view.ty) (p : View.Piece (Elt F) S1x1024x768 .f32) :
    ∀ n : ℕ, n ≤ k0_t1_loop.trips →
      (p ∈ pb_k0_t1 (F := F) 𝒱 c bd i arg1 harg1 arg2 harg2 arg3 harg3 arg4 harg4 arg5 harg5 X n
        ↔ ∃ k : Fin k0_t1_loop.trips, k.val < n ∧ p = headPiece arg5 X k)
  | 0, _ => by
    rw [pb_k0_t1.eq_1]
    exact ⟨fun h => absurd h List.not_mem_nil, fun ⟨k, hk, _⟩ => absurd hk (Nat.not_lt_zero _)⟩
  | n + 1, hn => by
    have ih := mem_pb 𝒱 bd c i arg1 harg1 arg2 harg2 arg3 harg3 arg4 harg4 arg5 harg5 X p n (Nat.le_of_succ_le hn)
    have hs := pb_k0_t1_succ (F := F) 𝒱 c bd i arg1 harg1 arg2 harg2 arg3 harg3 arg4 harg4 arg5 harg5 X ⟨n, hn⟩
    rw [show (⟨n, hn⟩ : Fin k0_t1_loop.trips).val + 1 = n + 1 from rfl] at hs
    rw [hs, tripL_eq, List.mem_append, List.mem_singleton, ih]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hlt | heq
      · exact Or.inr ⟨k, hlt, h⟩
      · refine Or.inl ?_
        have : k = ⟨n, hn⟩ := Fin.ext heq
        rw [h, this]

/-- The scratch contents the loop reads: the projection payload stored whole over whatever was there. -/
abbrev scratchAfter (arg1 : Memref sig .tc .vmem S1x1024x768 .f32) (harg1 : arg1.IsWhole) (arg2 : Memref sig .tc .vmem S768x2304 .bf16) (harg2 : arg2.IsWhole) (arg3 : Memref sig .tc .vmem S1x2304 .f32) (harg3 : arg3.IsWhole) (arg5 : Memref sig .tc .vmem S1024x2304 .f32)
    (x0 : Vec F S1x1024x768 .f32) (x1 : Vec F S768x2304 .bf16) (x2 : Vec F S1x2304 .f32) : BufTy.Contents (Elt F) arg5.view.ty :=
  arg5.view.writes (Elt F) arg5.view.junk
    [⟨Rect.unit ![0, 0] S1024x2304.size inb_S1024x2304_S1024x2304_0_0,
      k0_pay1 (View.readAt (Elt F) arg1.view (Rect.unit ![0, 0, 0] S1x1024x768.size inb_S1x1024x768_S1x1024x768_0_0_0).toLoadRect (harg1.unread x0))
        (View.readAt (Elt F) arg2.view (Rect.unit ![0, 0] S768x2304.size inb_S768x2304_S768x2304_0_0).toLoadRect (harg2.unread x1))
        (View.readAt (Elt F) arg3.view (Rect.unit ![0, 0] S1x2304.size inb_S1x2304_S1x2304_0_0).toLoadRect (harg3.unread x2))⟩]

/-- The body's run leaves, for the output block, the pieces of all the loop's trips over that scratch. -/
theorem run_pieces (c : Dev nD) (i : grid0.Coords) (arg1 : Memref sig .tc .vmem S1x1024x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S1x1024x768 .f32) (harg4 : arg4.IsWhole) (arg5 : Memref sig .tc .vmem S1024x2304 .f32) (harg5 : arg5.IsWhole)
    (x0 : Vec F S1x1024x768 .f32) (x1 : Vec F S768x2304 .bf16) (x2 : Vec F S1x2304 .f32) :
    (kernelRun0_A c i arg1 harg1 arg2 harg2 arg3 harg3 arg4 harg4 arg5 harg5 x0 x1 x2).1
      = pb_k0_t1 (F := F) Variants.none c none i arg1 harg1 arg2 harg2 arg3 harg3 arg4 harg4 arg5 harg5
          (scratchAfter arg1 harg1 arg2 harg2 arg3 harg3 arg5 x0 x1 x2) k0_t1_loop.trips := by
  unfold kernelRun0_A
  dsimp only
  sl_unfold_words
  rfl

/-- A load of a whole memref through the whole-shape rectangle reads its contents. -/
theorem readAt_whole_unread {S : Shape} {e : EltTy} (M : Memref sig .tc .vmem S e) (hM : M.IsWhole)
    {off : Fin S.rank → Nat} (hz : off = fun _ => 0) (inb : ∀ a, off a + S.size a ≤ S.size a) (x : S.Idx → Elt F e) :
    View.readAt (Elt F) M.view (Rect.unit off S.size inb).toLoadRect (hM.unread x) = x := by
  rw [View.readAt_eq_ld, hM.read_unread, View.ld_unit_zero hz]

/-- A load from the scratch after the projection was stored whole reads the projection at the load's indices. -/
theorem readAt_scratchAfter (arg1 : Memref sig .tc .vmem S1x1024x768 .f32) (harg1 : arg1.IsWhole) (arg2 : Memref sig .tc .vmem S768x2304 .bf16) (harg2 : arg2.IsWhole) (arg3 : Memref sig .tc .vmem S1x2304 .f32) (harg3 : arg3.IsWhole) (arg5 : Memref sig .tc .vmem S1024x2304 .f32)
    (x0 : Vec F S1x1024x768 .f32) (x1 : Vec F S768x2304 .bf16) (x2 : Vec F S1x2304 .f32) (r : Rect S1024x2304) :
    View.readAt (Elt F) arg5.view r.toLoadRect (scratchAfter arg1 harg1 arg2 harg2 arg3 harg3 arg5 x0 x1 x2)
      = View.ld (k0_pay1 x0 x1 x2) r := by
  unfold scratchAfter
  rw [View.readAt_writes_junk_eq_canon, View.canon_unit_zero (by funext a; match a with | ⟨0, _⟩ => rfl | ⟨1, _⟩ => rfl),
    readAt_whole_unread arg1 harg1 (by funext a; match a with | ⟨0, _⟩ => rfl | ⟨1, _⟩ => rfl | ⟨2, _⟩ => rfl),
    readAt_whole_unread arg2 harg2 (by funext a; match a with | ⟨0, _⟩ => rfl | ⟨1, _⟩ => rfl),
    readAt_whole_unread arg3 harg3 (by funext a; match a with | ⟨0, _⟩ => rfl | ⟨1, _⟩ => rfl)]

/-- An index of head h's band lies in head k's band only for k = h: the bands start 64 columns apart and are 64 wide. -/
theorem band_unique (h k : Fin k0_t1_loop.trips) (x : (outBand h).shape.Idx) (hm : (outBand h).emb x ∈ (outBand k).set) : k = h := by
  have hk := (Rect.mem_set_unit.mp hm) (2 : Fin 3)
  have e : ((outBand h).emb x (2 : Fin 3)).val = k0_off3 h (2 : Fin 3) + 1 * (x (2 : Fin 3)).val := rfl
  have hx : (x (2 : Fin 3)).val < 64 := (x (2 : Fin 3)).isLt
  rw [k0_off3_eq] at e hk
  have e' : ((outBand h).emb x (2 : Fin 3)).val = 64 * h.val + 1 * (x (2 : Fin 3)).val := e
  have hk' : 64 * k.val ≤ ((outBand h).emb x (2 : Fin 3)).val ∧ ((outBand h).emb x (2 : Fin 3)).val < 64 * k.val + 64 := hk
  apply Fin.ext
  omega

/-- WHAT THE BODY LEAVES at an index of head h's band: the head's function of the three bands of the projection. -/
theorem out_at (c : Dev nD) (i : grid0.Coords) (arg1 : Memref sig .tc .vmem S1x1024x768 .f32) (harg1 : arg1.IsWhole) (arg2 : Memref sig .tc .vmem S768x2304 .bf16) (harg2 : arg2.IsWhole) (arg3 : Memref sig .tc .vmem S1x2304 .f32) (harg3 : arg3.IsWhole) (arg4 : Memref sig .tc .vmem S1x1024x768 .f32) (harg4 : arg4.IsWhole) (arg5 : Memref sig .tc .vmem S1024x2304 .f32) (harg5 : arg5.IsWhole)
    (x0 : Vec F S1x1024x768 .f32) (x1 : Vec F S768x2304 .bf16) (x2 : Vec F S1x2304 .f32) (h : Fin k0_t1_loop.trips) (x : (outBand h).shape.Idx) :
    out0_A_3 c i arg1 harg1 arg2 harg2 arg3 harg3 arg4 harg4 arg5 harg5 x0 x1 x2 ((outBand h).emb x)
      = k0_pay2 (View.ld (k0_pay1 x0 x1 x2) (qBand h)) (View.ld (k0_pay1 x0 x1 x2) (kBand h)) (View.ld (k0_pay1 x0 x1 x2) (vBand h)) x := by
  unfold out0_A_3
  rw [run_pieces]
  have hmem := (mem_pb (F := F) Variants.none none c i arg1 harg1 arg2 harg2 arg3 harg3 arg4 harg4 arg5 harg5
    (scratchAfter arg1 harg1 arg2 harg2 arg3 harg3 arg5 x0 x1 x2)
    (headPiece arg5 (scratchAfter arg1 harg1 arg2 harg2 arg3 harg3 arg5 x0 x1 x2) h) k0_t1_loop.trips le_rfl).mpr ⟨h, h.isLt, rfl⟩
  have huniq : ∀ q ∈ pb_k0_t1 (F := F) Variants.none c none i arg1 harg1 arg2 harg2 arg3 harg3 arg4 harg4 arg5 harg5
      (scratchAfter arg1 harg1 arg2 harg2 arg3 harg3 arg5 x0 x1 x2) k0_t1_loop.trips,
      (headPiece arg5 (scratchAfter arg1 harg1 arg2 harg2 arg3 harg3 arg5 x0 x1 x2) h).1.emb x ∈ q.1.set →
        q = headPiece arg5 (scratchAfter arg1 harg1 arg2 harg2 arg3 harg3 arg5 x0 x1 x2) h := by
    intro q hq hin
    obtain ⟨k, -, rfl⟩ := (mem_pb (F := F) Variants.none none c i arg1 harg1 arg2 harg2 arg3 harg3 arg4 harg4 arg5 harg5
      (scratchAfter arg1 harg1 arg2 harg2 arg3 harg3 arg5 x0 x1 x2) q k0_t1_loop.trips le_rfl).mp hq
    rw [band_unique h k x hin]
  have hr := View.read_writes_of_unique VO0_3 VO0_3.junk
    (headPiece arg5 (scratchAfter arg1 harg1 arg2 harg2 arg3 harg3 arg5 x0 x1 x2) h) x _ hmem huniq
  refine hr.trans ?_
  show k0_pay2 _ _ _ x = _
  rw [readAt_scratchAfter, readAt_scratchAfter, readAt_scratchAfter]

end Cert.KernelIdeal.Heads

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.KernelPayloads.lean ====
/-
  The kernel body's two payloads at the ideal values, read at an index.

  The first is the fused projection of the block's 1024 rows: Y(r, e) = Σ_d x(0, r, d) · w(d, e) + b(0, e).
  The second is one head's attention from three 1024 × 64 bands Q, K, V of the projection:
  scores S(r, n) = (Σ_j Q(r, j) · K(n, j)) · scale, row maxima, weights P(r, n) = exp (S(r, n) - max_n S(r, n)),
  and the result (Σ_n P(r, n) · V(n, j)) / Σ_n P(r, n). A change of float format is the identity at these values.
-/
import proofs.«118227_j16131897164364_2_alg».proof.Proof.Gen.KernelIdeal.Skeleton
import proofs.«118227_j16131897164364_2_alg».proof.Proof.LibAxisFold
import proofs.«118227_j16131897164364_2_alg».proof.Proof.LibKeepdims
import proofs.«118227_j16131897164364_2_alg».proof.Proof.LibPlainDot
import proofs.«118227_j16131897164364_2_alg».proof.Proof.LibTransposedDot
import Idealize.ShloMosaic.Lib.ValueLayout
import Idealize.ShloMosaic.Lib.Pipeline.Value

noncomputable section

namespace Cert.KernelIdeal.Payloads

open Cert.KernelIdeal Cert.KernelIdeal.Gen
open Idealize.ShloMosaic Idealize.ShloMosaic.ValueIdx

/-! ## The projection -/

/-- The projection payload at row r, column e. -/
theorem pay1_apply (v0 : FVec Ideal S1x1024x768 .f32) (v3 : FVec Ideal S768x2304 .bf16) (v6 : FVec Ideal S1x2304 .f32)
    (r : Fin 1024) (e : Fin 2304) :
    k0_pay1 (F := Ideal) v0 v3 v6 (ix2 r e)
      = (∑ d : Fin 768, v0 (ix3 (0 : Fin 1) r d) * v3 (ix2 d e)) + v6 (ix2 (0 : Fin 1) e) := by
  unfold k0_pay1
  simp only [shapeCast_self]
  show FloatOps.matmul (DotDims.plain 1024 768 2304) none
        (truncf .bf16 (shapeCast S1024x768 v0 shapeCasts_S1x1024x768_S1024x768) bitsLt_bf16_f32) v3
        (constant S1024x2304 .f32 0x00000000#32) (ix2 r e)
      + broadcastTo S1024x2304 v6 broadcasts_S1x2304_S1024x2304 (ix2 r e) = _
  rw [PlainDot.matmul_zero_apply, broadcastTo_1b_ab_apply]
  refine congrArg (· + v6 (ix2 (0 : Fin 1) e)) (Finset.sum_congr rfl fun d _ => ?_)
  show shapeCast S1024x768 v0 shapeCasts_S1x1024x768_S1024x768 (ix2 r d) * v3 (ix2 d e) = _
  rw [shapeCast_1ab_ab_apply]

/-! ## One head -/

/-- The scaled scores of the rows of Q against the rows of K. -/
def scores (Q K : FVec Ideal S1024x64 .f32) : FVec Ideal S1024x1024 .f32 :=
  mulf (matmul dot_S1024x64_S1024x64_S1024x1024_1_1_0_0_n_n none (truncf .bf16 Q bitsLt_bf16_f32) (truncf .bf16 K bitsLt_bf16_f32)
      (constant S1024x1024 .f32 0x00000000#32))
    (broadcast S1024x1024 (Scalar.ofBits .f32 0x3D13CD3A#32))

/-- Each row's maximum. -/
def rowMaxV (s : FVec Ideal S1024x1024 .f32) : FVec Ideal S1024 .f32 :=
  multiReduction .maximumf [1] S1024 s 0xFF800000#32 reduces_S1024x1024_S1024 (.inl rfl) rfl

/-- The weights: the exponential of each score less its row's maximum. -/
def weightsV (s : FVec Ideal S1024x1024 .f32) : FVec Ideal S1024x1024 .f32 :=
  exp (subf s (broadcastTo S1024x1024 (shapeCast S1024x1 (rowMaxV s) shapeCasts_S1024_S1024x1) broadcasts_S1024x1_S1024x1024))

/-- Each row's total. -/
def totalsV (p : FVec Ideal S1024x1024 .f32) : FVec Ideal S1024 .f32 :=
  multiReduction .add [1] S1024 p 0x00000000#32 reduces_S1024x1024_S1024 (.inl rfl) rfl

/-- The head payload is the weighted sum of V's rows over the rows' totals, laid out as one block. -/
theorem pay2_eq (Q K V : FVec Ideal S1024x64 .f32) :
    k0_pay2 (F := Ideal) Q K V
      = shapeCast S1x1024x64
          (divf (matmul dot_S1024x1024_S1024x64_S1024x64_1_0_0_1_n_n none (truncf .bf16 (weightsV (scores Q K)) bitsLt_bf16_f32)
                (truncf .bf16 V bitsLt_bf16_f32) (constant S1024x64 .f32 0x00000000#32))
            (broadcastTo S1024x64 (shapeCast S1024x1 (totalsV (weightsV (scores Q K))) shapeCasts_S1024_S1024x1) broadcasts_S1024x1_S1024x64))
          shapeCasts_S1024x64_S1x1024x64 := rfl

/-- A score: the dot product of row r of Q with row n of K, scaled. -/
theorem scores_apply (Q K : FVec Ideal S1024x64 .f32) (r n : Fin 1024) :
    scores Q K (ix2 r n) = (∑ j : Fin 64, Q (ix2 r j) * K (ix2 n j)) * Ideal.ofBits .f32 0x3D13CD3A#32 := by
  show FloatOps.matmul (DotDims.transposedRhs 1024 64 1024) none (truncf .bf16 Q bitsLt_bf16_f32) (truncf .bf16 K bitsLt_bf16_f32)
        (constant S1024x1024 .f32 0x00000000#32) (ix2 r n) * Ideal.ofBits .f32 0x3D13CD3A#32 = _
  rw [TransposedDot.matmul_zero_apply]
  rfl

/-- A row's maximum, from the pattern of -∞. -/
theorem rowMaxV_apply (s : FVec Ideal S1024x1024 .f32) (r : Fin 1024) :
    rowMaxV s (ix1 r) = (Finset.univ : Finset (Fin 1024)).fold max (Ideal.ofBits .f32 0xFF800000#32) (fun n => s (ix2 r n)) :=
  AxisFold.max_second_apply s 0xFF800000#32 reduces_S1024x1024_S1024 (.inl rfl) rfl r

/-- A weight. -/
theorem weightsV_apply (s : FVec Ideal S1024x1024 .f32) (r n : Fin 1024) :
    weightsV s (ix2 r n) = Ideal.exp (s (ix2 r n) - rowMaxV s (ix1 r)) := by
  show Ideal.exp (s (ix2 r n)
      - broadcastTo S1024x1024 (shapeCast S1024x1 (rowMaxV s) shapeCasts_S1024_S1024x1) broadcasts_S1024x1_S1024x1024 (ix2 r n)) = _
  rw [Keepdims.broadcastTo_a1_ab_apply, Keepdims.shapeCast_a_a1_apply]

/-- A row's total. -/
theorem totalsV_apply (p : FVec Ideal S1024x1024 .f32) (r : Fin 1024) :
    totalsV p (ix1 r) = ∑ n : Fin 1024, p (ix2 r n) :=
  AxisFold.sum_second_apply p reduces_S1024x1024_S1024 (.inl rfl) rfl r

/-- THE HEAD PAYLOAD at row r, feature j: the weighted sum of V's column j over the row's total. -/
theorem pay2_apply (Q K V : FVec Ideal S1024x64 .f32) (u : Fin 1) (r : Fin 1024) (j : Fin 64) :
    k0_pay2 (F := Ideal) Q K V (ix3 u r j)
      = Ideal.div (∑ n : Fin 1024, weightsV (scores Q K) (ix2 r n) * V (ix2 n j))
          (∑ n : Fin 1024, weightsV (scores Q K) (ix2 r n)) := by
  rw [pay2_eq, shapeCast_ab_1ab_apply]
  show Ideal.div
      (FloatOps.matmul (DotDims.plain 1024 1024 64) none (truncf .bf16 (weightsV (scores Q K)) bitsLt_bf16_f32)
        (truncf .bf16 V bitsLt_bf16_f32) (constant S1024x64 .f32 0x00000000#32) (ix2 r j))
      (broadcastTo S1024x64 (shapeCast S1024x1 (totalsV (weightsV (scores Q K))) shapeCasts_S1024_S1024x1) broadcasts_S1024x1_S1024x64 (ix2 r j)) = _
  rw [PlainDot.matmul_zero_apply, Keepdims.broadcastTo_a1_ab_apply, Keepdims.shapeCast_a_a1_apply, totalsV_apply]
  rfl

end Cert.KernelIdeal.Payloads

end
-- ==== Proof.Spec.lean ====
/-
  Multi-head self-attention over f32[8, 1024, 768] with a fused query/key/value projection, as functions of the three
  argument arrays on the extended reals, index by index.

  The projection of row n of batch b is y(b, n, e) = Σ_d X(b, n, d) · W(d, e) + B(e) for the 2304 output columns e.
  The columns interleave the three components fastest: column 192·h + 3·j + c holds component c (0 the query, 1 the
  key, 2 the value) of feature j of head h. For head h the score of query row n against key row n' is
  s(n, n') = (Σ_j q(n, j) · k(n', j)) · scale, the weights are exp (s(n, n') - max_n' s(n, n')), and the head's output
  row is the weighted mean of the value rows. The result's column 64·h + j holds feature j of head h.

  The mean is written in two arrangements: the weighted sum divided by the weights' total, and the sum of the value
  rows each times its weight over the total. They agree where every quantity is a real number and the total is not zero.
-/
import Idealize.ShloMosaic.PureOps.Ideal
import Idealize.ShloMosaic.Lib.ValueIdx

noncomputable section

namespace Cert.Attn

open Idealize.ShloMosaic Idealize.ShloMosaic.ValueIdx

/-- The shapes of the three arguments: activations, fused weight, fused bias. -/
abbrev SX : Shape := ⟨3, ![8, 1024, 768]⟩
abbrev SW : Shape := ⟨2, ![768, 2304]⟩
abbrev SB : Shape := ⟨1, ![2304]⟩

/-- The scale of the scores: the f32 nearest to 768^(-1/2), the same pattern in both programs. -/
def scale : EReal := Ideal.ofBits .f32 0x3D13CD3A#32

/-- The value a row maximum starts from: the pattern of -∞. -/
def negInf : EReal := Ideal.ofBits .f32 0xFF800000#32

/-- The projection's column holding component c of feature j of head h. -/
def col (h : Fin 12) (j : Fin 64) (c : Fin 3) : Fin 2304 :=
  ⟨h.val * 192 + j.val * 3 + c.val, by have := h.isLt; have := j.isLt; have := c.isLt; omega⟩

variable (X : SX.Idx → EReal) (W : SW.Idx → EReal) (B : SB.Idx → EReal)

/-- The fused projection at batch b, row n, column e. -/
def proj (b : Fin 8) (n : Fin 1024) (e : Fin 2304) : EReal :=
  (∑ d : Fin 768, X (ix3 b n d) * W (ix2 d e)) + B (ix1 e)

/-- The scaled score of query row n against key row n' in head h. -/
def score (b : Fin 8) (h : Fin 12) (n n' : Fin 1024) : EReal :=
  (∑ j : Fin 64, proj X W B b n (col h j 0) * proj X W B b n' (col h j 1)) * scale

/-- The largest score of query row n. -/
def rowMax (b : Fin 8) (h : Fin 12) (n : Fin 1024) : EReal :=
  (Finset.univ : Finset (Fin 1024)).fold max negInf (fun n' => score X W B b h n n')

/-- The weight of key row n' for query row n. -/
def weight (b : Fin 8) (h : Fin 12) (n n' : Fin 1024) : EReal :=
  Ideal.exp (score X W B b h n n' - rowMax X W B b h n)

/-- The total of a query row's weights. -/
def denom (b : Fin 8) (h : Fin 12) (n : Fin 1024) : EReal :=
  ∑ n' : Fin 1024, weight X W B b h n n'

/-- Feature j of head h's output row n: the weighted sum of the value rows, divided by the total. -/
def headOut (b : Fin 8) (h : Fin 12) (n : Fin 1024) (j : Fin 64) : EReal :=
  Ideal.div (∑ n' : Fin 1024, weight X W B b h n n' * proj X W B b n' (col h j 2)) (denom X W B b h n)

/-- The same with each weight divided by the total before the sum. -/
def headOutPre (b : Fin 8) (h : Fin 12) (n : Fin 1024) (j : Fin 64) : EReal :=
  ∑ n' : Fin 1024, Ideal.div (weight X W B b h n n') (denom X W B b h n) * proj X W B b n' (col h j 2)

/-- The head of a result column, and the feature within it. -/
def headOf (i : SX.Idx) : Fin 12 := ⟨(i 2).val / 64, by have h : (i 2).val < 768 := (i 2).isLt; omega⟩
def featOf (i : SX.Idx) : Fin 64 := ⟨(i 2).val % 64, Nat.mod_lt _ (by decide)⟩

/-- The attention output, normalised after the weighted sum. -/
def attn : SX.Idx → EReal := fun i => headOut X W B (i 0) (headOf i) (i 1) (featOf i)

/-- The attention output, each weight normalised before the sum. -/
def attnPre : SX.Idx → EReal := fun i => headOutPre X W B (i 0) (headOf i) (i 1) (featOf i)

end Cert.Attn

end
-- ==== Proof.HostPrefix.lean ====
/-
  The arrays the kernel is launched on, in terms of the program's arguments.

  Before the call the host re-lays the fused weight and bias so that the three components stop being interleaved: the
  weight [768, 2304] is viewed as [768, 12, 64, 3] (head, feature, component), the component axis is moved in front of
  the head axis, and the result is flattened again; the bias likewise through [12, 64, 3]. So column
  768·c + 64·h + j of the re-laid weight is column 192·h + 3·j + c of the argument, row by row, and the same for
  the bias (which is also given a leading unit axis). The change of float format of the weight is the identity here.
-/
import proofs.«118227_j16131897164364_2_alg».proof.Proof.Gen.KernelIdeal.Frame
import proofs.«118227_j16131897164364_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostPrefix

open Cert.KernelIdeal Cert.KernelIdeal.Gen
open Idealize.ShloMosaic Idealize.ShloMosaic.TcCoe Idealize.ShloMosaic.ValueIdx Idealize.ShloMosaic.StableHlo
open Idealize.SL.Sem

/-- The re-laid column holding component c of feature j of head h. -/
def kcol (c : Fin 3) (h : Fin 12) (j : Fin 64) : Fin 2304 :=
  ⟨c.val * 768 + h.val * 64 + j.val, by have := c.isLt; have := h.isLt; have := j.isLt; omega⟩

variable (m : (ℓ : Loc nD τ sig) → Buf (Elt Ideal) ℓ)

/-- The weight the kernel is launched on, as the host operations' term of the argument. -/
theorem wperm_eq (c : Dev nD) :
    @Eq (S768x2304.Idx → EReal) (V (F := Ideal) m c main_v6)
      (truncf (F := Ideal) .bf16 (shapeCast S768x2304 (transpose S768x3x12x64 [0, 3, 1, 2]
            (shapeCast S768x12x64x3 (m ((c : Thread nD τ).loc main_arg1) : S768x2304.Idx → EReal) shapeCasts_S768x2304_S768x12x64x3)
            transposes_S768x12x64x3_S768x3x12x64_0_3_1_2) shapeCasts_S768x3x12x64_S768x2304) bitsLt_bf16_f32) := by
  dsimp only [V, hostOps0]
  after_results
  rfl

/-- The bias the kernel is launched on, likewise. -/
theorem bperm_eq (c : Dev nD) :
    @Eq (S1x2304.Idx → EReal) (V (F := Ideal) m c main_v7)
      (shapeCast S1x2304 (shapeCast S2304 (transpose S3x12x64 [2, 0, 1]
            (shapeCast S12x64x3 (m ((c : Thread nD τ).loc main_arg2) : S2304.Idx → EReal) shapeCasts_S2304_S12x64x3)
            transposes_S12x64x3_S3x12x64_2_0_1) shapeCasts_S3x12x64_S2304) shapeCasts_S2304_S1x2304) := by
  dsimp only [V, hostOps0]
  after_results
  rfl

/-- The re-laying of a weight array w, read at row d and re-laid column 768·c + 64·h + j: w at column 192·h + 3·j + c. -/
theorem relay_weight (w : S768x2304.Idx → EReal) (d : Fin 768) (cc : Fin 3) (h : Fin 12) (j : Fin 64) :
    truncf (F := Ideal) .bf16 (shapeCast S768x2304 (transpose S768x3x12x64 [0, 3, 1, 2]
        (shapeCast S768x12x64x3 w shapeCasts_S768x2304_S768x12x64x3)
        transposes_S768x12x64x3_S768x3x12x64_0_3_1_2) shapeCasts_S768x3x12x64_S768x2304) bitsLt_bf16_f32 (ix2 d (kcol cc h j))
      = w (ix2 d (Cert.Attn.col h j cc)) := by
  show shapeCast S768x2304 (transpose S768x3x12x64 [0, 3, 1, 2]
        (shapeCast S768x12x64x3 w shapeCasts_S768x2304_S768x12x64x3)
        transposes_S768x12x64x3_S768x3x12x64_0_3_1_2) shapeCasts_S768x3x12x64_S768x2304 (ix2 d (kcol cc h j)) = _
  rw [shapeCast_apply _ shapeCasts_S768x3x12x64_S768x2304 (ix2 d (kcol cc h j)) (ix4 d cc h j) (by
      rw [Shape.rowMajor_val_four, Shape.rowMajor_val_two]
      show ((d.val * 3 + cc.val) * 12 + h.val) * 64 + j.val = d.val * 2304 + (cc.val * 768 + h.val * 64 + j.val)
      omega),
    transpose_apply _ _ transposes_S768x12x64x3_S768x3x12x64_0_3_1_2 (ix4 d cc h j) (ix4 d h j cc) (fun b => by
      match b with
      | ⟨0, _⟩ => rfl
      | ⟨1, _⟩ => rfl
      | ⟨2, _⟩ => rfl
      | ⟨3, _⟩ => rfl),
    shapeCast_apply _ shapeCasts_S768x2304_S768x12x64x3 (ix4 d h j cc) (ix2 d (Cert.Attn.col h j cc)) (by
      rw [Shape.rowMajor_val_two, Shape.rowMajor_val_four]
      show d.val * 2304 + (h.val * 192 + j.val * 3 + cc.val) = ((d.val * 12 + h.val) * 64 + j.val) * 3 + cc.val
      omega)]

/-- The re-laying of a bias array v, read at entry 768·c + 64·h + j: v at entry 192·h + 3·j + c. -/
theorem relay_bias (v : S2304.Idx → EReal) (cc : Fin 3) (h : Fin 12) (j : Fin 64) :
    shapeCast S1x2304 (shapeCast S2304 (transpose S3x12x64 [2, 0, 1]
        (shapeCast S12x64x3 v shapeCasts_S2304_S12x64x3)
        transposes_S12x64x3_S3x12x64_2_0_1) shapeCasts_S3x12x64_S2304) shapeCasts_S2304_S1x2304 (ix2 (0 : Fin 1) (kcol cc h j))
      = v (ix1 (Cert.Attn.col h j cc)) := by
  rw [shapeCast_a_1a_apply,
    shapeCast_apply _ shapeCasts_S3x12x64_S2304 (ix1 (kcol cc h j)) (ix3 cc h j) (by
      rw [Shape.rowMajor_val_three, Shape.rowMajor_val_one]
      show (cc.val * 12 + h.val) * 64 + j.val = cc.val * 768 + h.val * 64 + j.val
      omega),
    transpose_apply _ _ transposes_S12x64x3_S3x12x64_2_0_1 (ix3 cc h j) (ix3 h j cc) (fun b => by
      match b with
      | ⟨0, _⟩ => rfl
      | ⟨1, _⟩ => rfl
      | ⟨2, _⟩ => rfl),
    shapeCast_apply _ shapeCasts_S2304_S12x64x3 (ix3 h j cc) (ix1 (Cert.Attn.col h j cc)) (by
      rw [Shape.rowMajor_val_one, Shape.rowMajor_val_three]
      show h.val * 192 + j.val * 3 + cc.val = (h.val * 64 + j.val) * 3 + cc.val
      omega)]

/-- Column 768·c + 64·h + j of the weight the kernel is launched on is column 192·h + 3·j + c of the argument. -/
theorem wperm_apply (c : Dev nD) (d : Fin 768) (cc : Fin 3) (h : Fin 12) (j : Fin 64) :
    @Eq EReal ((V (F := Ideal) m c main_v6 : S768x2304.Idx → EReal) (ix2 d (kcol cc h j)))
      ((m ((c : Thread nD τ).loc main_arg1) : S768x2304.Idx → EReal) (ix2 d (Cert.Attn.col h j cc))) :=
  (congrFun (wperm_eq m c) (ix2 d (kcol cc h j))).trans (relay_weight _ d cc h j)

/-- Entry 768·c + 64·h + j of the bias the kernel is launched on is entry 192·h + 3·j + c of the argument. -/
theorem bperm_apply (c : Dev nD) (cc : Fin 3) (h : Fin 12) (j : Fin 64) :
    @Eq EReal ((V (F := Ideal) m c main_v7 : S1x2304.Idx → EReal) (ix2 (0 : Fin 1) (kcol cc h j)))
      ((m ((c : Thread nD τ).loc main_arg2) : S2304.Idx → EReal) (ix1 (Cert.Attn.col h j cc))) :=
  (congrFun (bperm_eq m c) (ix2 (0 : Fin 1) (kcol cc h j))).trans (relay_bias _ cc h j)

end Cert.KernelIdeal.HostPrefix

end
-- ==== Proof.HeadValue.lean ====
/-
  One head of the kernel against the specification.

  If Y is a 1024 × 2304 array whose re-laid column 768·c + 64·h + j, at row r, is the specification's projection of
  row r at the interleaved column 192·h + 3·j + c, then the body's per-head function of Y's three bands for head h —
  queries from column 64·h, keys from 768 + 64·h, values from 1536 + 64·h — is, at row r and feature j, the
  specification's head output: the same scores, row maximum, weights, total and quotient, term by term.
-/
import proofs.«118227_j16131897164364_2_alg».proof.Proof.HeadStores
import proofs.«118227_j16131897164364_2_alg».proof.Proof.KernelPayloads
import proofs.«118227_j16131897164364_2_alg».proof.Proof.HostPrefix
import proofs.«118227_j16131897164364_2_alg».proof.Proof.Spec

noncomputable section

namespace Cert.KernelIdeal.HeadValue

open Cert.KernelIdeal Cert.KernelIdeal.Gen Cert.KernelIdeal.Heads Cert.KernelIdeal.Payloads Cert.KernelIdeal.HostPrefix Cert.Attn
open Idealize.ShloMosaic Idealize.ShloMosaic.ValueIdx

/-- The loop runs once per head. -/
theorem trips_eq : k0_t1_loop.trips = 12 := by decide +kernel

/-- The query band of head h reads the re-laid columns of component 0. -/
theorem qBand_idx (h' : Fin k0_t1_loop.trips) (h : Fin 12) (hh : h'.val = h.val) (r : Fin 1024) (j : Fin 64) :
    (qBand h').idx (ix2 r j) = ix2 r (kcol 0 h j) := by
  funext a
  apply Fin.ext
  have e := k0_off1_eq h'
  match a with
  | ⟨0, _⟩ =>
    show k0_off1 h' (0 : Fin 2) + 1 * r.val = r.val
    rw [e]; show 0 + 1 * r.val = r.val; omega
  | ⟨1, _⟩ =>
    show k0_off1 h' (1 : Fin 2) + 1 * j.val = 0 * 768 + h.val * 64 + j.val
    rw [e]; show 64 * h'.val + 1 * j.val = 0 * 768 + h.val * 64 + j.val; omega

/-- The key band reads the columns of component 1. -/
theorem kBand_idx (h' : Fin k0_t1_loop.trips) (h : Fin 12) (hh : h'.val = h.val) (r : Fin 1024) (j : Fin 64) :
    (kBand h').idx (ix2 r j) = ix2 r (kcol 1 h j) := by
  funext a
  apply Fin.ext
  have e : k0_off2 h' 768#32 = ![0, 768 * 0 + 64 * h'.val + 768] := k0_off2_eq h' ⟨0, by decide⟩
  match a with
  | ⟨0, _⟩ =>
    show k0_off2 h' 768#32 (0 : Fin 2) + 1 * r.val = r.val
    rw [e]; show 0 + 1 * r.val = r.val; omega
  | ⟨1, _⟩ =>
    show k0_off2 h' 768#32 (1 : Fin 2) + 1 * j.val = 1 * 768 + h.val * 64 + j.val
    rw [e]; show 768 * 0 + 64 * h'.val + 768 + 1 * j.val = 1 * 768 + h.val * 64 + j.val; omega

/-- The value band reads the columns of component 2. -/
theorem vBand_idx (h' : Fin k0_t1_loop.trips) (h : Fin 12) (hh : h'.val = h.val) (r : Fin 1024) (j : Fin 64) :
    (vBand h').idx (ix2 r j) = ix2 r (kcol 2 h j) := by
  funext a
  apply Fin.ext
  have e : k0_off2 h' 1536#32 = ![0, 768 * 1 + 64 * h'.val + 768] := k0_off2_eq h' ⟨1, by decide⟩
  match a with
  | ⟨0, _⟩ =>
    show k0_off2 h' 1536#32 (0 : Fin 2) + 1 * r.val = r.val
    rw [e]; show 0 + 1 * r.val = r.val; omega
  | ⟨1, _⟩ =>
    show k0_off2 h' 1536#32 (1 : Fin 2) + 1 * j.val = 2 * 768 + h.val * 64 + j.val
    rw [e]; show 768 * 1 + 64 * h'.val + 768 + 1 * j.val = 2 * 768 + h.val * 64 + j.val; omega

/-- THE HEAD: the body's per-head function of the three bands of such a Y is the specification's head output. -/
theorem head_value (X : SX.Idx → EReal) (W : SW.Idx → EReal) (B : SB.Idx → EReal) (b : Fin 8)
    (Y : FVec Ideal S1024x2304 .f32)
    (hY : ∀ (r : Fin 1024) (cc : Fin 3) (h : Fin 12) (j : Fin 64), Y (ix2 r (kcol cc h j)) = proj X W B b r (col h j cc))
    (h' : Fin k0_t1_loop.trips) (h : Fin 12) (hh : h'.val = h.val) (u : Fin 1) (r : Fin 1024) (j : Fin 64) :
    k0_pay2 (F := Ideal) (View.ld (Val := Elt Ideal) (e' := EltTy.f32) Y (qBand h')) (View.ld (Val := Elt Ideal) (e' := EltTy.f32) Y (kBand h')) (View.ld (Val := Elt Ideal) (e' := EltTy.f32) Y (vBand h')) (ix3 u r j)
      = headOut X W B b h r j := by
  have hq : ∀ (r : Fin 1024) (j : Fin 64), View.ld (Val := Elt Ideal) (e' := EltTy.f32) Y (qBand h') (ix2 r j) = proj X W B b r (col h j 0) := fun r j => by
    show Y ((qBand h').idx (ix2 r j)) = _
    rw [qBand_idx h' h hh, hY]
  have hk : ∀ (r : Fin 1024) (j : Fin 64), View.ld (Val := Elt Ideal) (e' := EltTy.f32) Y (kBand h') (ix2 r j) = proj X W B b r (col h j 1) := fun r j => by
    show Y ((kBand h').idx (ix2 r j)) = _
    rw [kBand_idx h' h hh, hY]
  have hv : ∀ (r : Fin 1024) (j : Fin 64), View.ld (Val := Elt Ideal) (e' := EltTy.f32) Y (vBand h') (ix2 r j) = proj X W B b r (col h j 2) := fun r j => by
    show Y ((vBand h').idx (ix2 r j)) = _
    rw [vBand_idx h' h hh, hY]
  have hs : ∀ r n : Fin 1024, scores (View.ld (Val := Elt Ideal) (e' := EltTy.f32) Y (qBand h')) (View.ld (Val := Elt Ideal) (e' := EltTy.f32) Y (kBand h')) (ix2 r n) = score X W B b h r n := fun r n => by
    rw [scores_apply]
    unfold score scale
    simp only [hq, hk]
  have hm : ∀ r : Fin 1024, rowMaxV (scores (View.ld (Val := Elt Ideal) (e' := EltTy.f32) Y (qBand h')) (View.ld (Val := Elt Ideal) (e' := EltTy.f32) Y (kBand h'))) (ix1 r) = rowMax X W B b h r := fun r => by
    rw [rowMaxV_apply]
    unfold rowMax negInf
    simp only [hs]
  have hw : ∀ r n : Fin 1024, weightsV (scores (View.ld (Val := Elt Ideal) (e' := EltTy.f32) Y (qBand h')) (View.ld (Val := Elt Ideal) (e' := EltTy.f32) Y (kBand h'))) (ix2 r n) = weight X W B b h r n := fun r n => by
    rw [weightsV_apply, hs, hm]
    rfl
  rw [pay2_apply]
  unfold headOut denom
  simp only [hw, hv]

end Cert.KernelIdeal.HeadValue

end
-- ==== Proof.AttnValue.lean ====
/-
  The kernel's result array as one function of its arguments.

  Grid point t handles batch t: its input block is rows (t, ·, ·) of the activations, the re-laid weight and bias are
  the same whole blocks at every point, and its output block is rows (t, ·, ·) of the result. The body's projection of
  the block is therefore the specification's projection of batch t read at the re-laid columns, each of the twelve
  column bands of the output block is the specification's head output, and the eight blocks tile the result array.
-/
import proofs.«118227_j16131897164364_2_alg».proof.Proof.Gen.KernelIdeal.Value
import proofs.«118227_j16131897164364_2_alg».proof.Proof.HeadValue

noncomputable section

namespace Cert.KernelIdeal.AttnValue

open Cert.KernelIdeal Cert.KernelIdeal.Gen Cert.KernelIdeal.Heads Cert.KernelIdeal.Payloads Cert.KernelIdeal.HostPrefix
open Cert.KernelIdeal.HeadValue Cert.Attn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three arguments as the program is launched on them. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)

/-- The result: the attention output of the arguments. -/
def result (c : Dev nD) : S8x1024x768.Idx → EReal := attn (argX m c) (argW m c) (argB m c)

/-- The index maps, decided over the eight points: the activations' and the result's blocks move with the point on the
    batch axis, the weight's and the bias's stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch a point handles. -/
def bOf (t : Fin cfg0.N) : Fin 8 := ⟨t.val, by have := t.isLt; have h : cfg0.N = 8 := N_0; omega⟩

/-- The activations' block at point t is batch t of the argument. -/
theorem blkX (c : Dev nD) (t : Fin cfg0.N) (u : Fin 1) (r : Fin 1024) (d : Fin 768) :
    iblk m c 0 t (ix3 u r d) = argX m c (ix3 (bOf t) r d) := by
  obtain ⟨e0, e1, e2, -⟩ := idx_facts t
  have hi : (((cfg0.win 0).blk t).view.emb (ix3 u r d) : S8x1024x768.Idx) = ix3 (bOf t) r d := by
    funext a
    apply Fin.ext
    have hu := u.isLt
    match a with
    | ⟨0, _⟩ => show win0_0.index t (0 : Fin 3) * 1 + 1 * u.val = t.val; omega
    | ⟨1, _⟩ => show win0_0.index t (1 : Fin 3) * 1024 + 1 * r.val = r.val; omega
    | ⟨2, _⟩ => show win0_0.index t (2 : Fin 3) * 768 + 1 * d.val = d.val; omega
  show V m c main_arg0 (((cfg0.win 0).blk t).view.emb (ix3 u r d)) = _
  exact (congrFun (V_main_arg0 m c) _).trans (congrArg (argX m c) hi)

/-- The weight's block at every point is the whole re-laid weight. -/
theorem blkW (c : Dev nD) (t : Fin cfg0.N) (d : Fin 768) (e : Fin 2304) :
    iblk m c 1 t (ix2 d e) = (V (F := Ideal) m c main_v6 : S768x2304.Idx → EReal) (ix2 d e) := by
  obtain ⟨-, -, -, e0, e1, -⟩ := idx_facts t
  have hi : (((cfg0.win 1).blk t).view.emb (ix2 d e) : S768x2304.Idx) = ix2 d e := by
    funext a
    apply Fin.ext
    match a with
    | ⟨0, _⟩ => show win0_1.index t (0 : Fin 2) * 768 + 1 * d.val = d.val; omega
    | ⟨1, _⟩ => show win0_1.index t (1 : Fin 2) * 2304 + 1 * e.val = e.val; omega
  show V m c main_v6 (((cfg0.win 1).blk t).view.emb (ix2 d e)) = _
  exact congrArg (V (F := Ideal) m c main_v6 : S768x2304.Idx → EReal) hi

/-- The bias's block at every point is the whole re-laid bias. -/
theorem blkB (c : Dev nD) (t : Fin cfg0.N) (u : Fin 1) (e : Fin 2304) :
    iblk m c 2 t (ix2 u e) = (V (F := Ideal) m c main_v7 : S1x2304.Idx → EReal) (ix2 (0 : Fin 1) e) := by
  obtain ⟨-, -, -, -, -, e0, e1, -⟩ := idx_facts t
  have hi : (((cfg0.win 2).blk t).view.emb (ix2 u e) : S1x2304.Idx) = ix2 (0 : Fin 1) e := by
    funext a
    apply Fin.ext
    have hu := u.isLt
    match a with
    | ⟨0, _⟩ => show win0_2.index t (0 : Fin 2) * 1 + 1 * u.val = 0; omega
    | ⟨1, _⟩ => show win0_2.index t (1 : Fin 2) * 2304 + 1 * e.val = e.val; omega
  show V m c main_v7 (((cfg0.win 2).blk t).view.emb (ix2 u e)) = _
  exact congrArg (V (F := Ideal) m c main_v7 : S1x2304.Idx → EReal) hi

/-- The body's projection of point t's blocks, at a re-laid column, is the specification's projection of batch t at
    the interleaved column. -/
theorem proj_at (c : Dev nD) (t : Fin cfg0.N) (r : Fin 1024) (cc : Fin 3) (h : Fin 12) (j : Fin 64) :
    k0_pay1 (F := Ideal) (iblk m c 0 t) (iblk m c 1 t) (iblk m c 2 t) (ix2 r (kcol cc h j))
      = proj (argX m c) (argW m c) (argB m c) (bOf t) r (col h j cc) := by
  rw [pay1_apply]
  unfold proj
  rw [blkB, bperm_apply]
  refine congrArg (· + argB m c (ix1 (col h j cc))) (Finset.sum_congr rfl fun d _ => ?_)
  rw [blkX, blkW, wperm_apply]

/-- WHAT POINT t WRITES BACK is block t of the result: each of the twelve column bands of the output block is the
    specification's head output for batch t. -/
theorem flushed_eq (c : Dev nD) (t : Fin cfg0.N) :
    (dats m 0 c).flushed 3 t = ((cfg0.win 3).blk t).view.read (Elt Ideal) (result m c) := by
  rw [Cert.KernelIdeal.Value.flushed3_A]
  funext y
  obtain ⟨u, r, e, rfl⟩ : ∃ (u : Fin 1) (r : Fin 1024) (e : Fin 768), y = ix3 u r e := ⟨y 0, y 1, y 2, eq_ix3 y⟩
  obtain ⟨-, -, -, -, -, -, -, e0, e1, e2⟩ := idx_facts t
  have he := e.isLt
  have hu := u.isLt
  have hlt : e.val / 64 < k0_t1_loop.trips := by rw [trips_eq]; omega
  have hy : (ix3 u r e : S1x1024x768.Idx)
      = (outBand ⟨e.val / 64, hlt⟩).emb (ix3 u r (⟨e.val % 64, Nat.mod_lt _ (by decide)⟩ : Fin 64)) := by
    funext a
    apply Fin.ext
    have ho := k0_off3_eq ⟨e.val / 64, hlt⟩
    match a with
    | ⟨0, _⟩ =>
      show u.val = k0_off3 ⟨e.val / 64, hlt⟩ (0 : Fin 3) + 1 * u.val
      rw [ho]; show u.val = 0 + 1 * u.val; omega
    | ⟨1, _⟩ =>
      show r.val = k0_off3 ⟨e.val / 64, hlt⟩ (1 : Fin 3) + 1 * r.val
      rw [ho]; show r.val = 0 + 1 * r.val; omega
    | ⟨2, _⟩ =>
      show e.val = k0_off3 ⟨e.val / 64, hlt⟩ (2 : Fin 3) + 1 * (e.val % 64)
      rw [ho]; show e.val = 64 * (e.val / 64) + 1 * (e.val % 64); omega
  have hi : (((cfg0.win 3).blk t).view.emb (ix3 u r e) : S8x1024x768.Idx) = ix3 (bOf t) r e := by
    funext a
    apply Fin.ext
    match a with
    | ⟨0, _⟩ => show win0_3.index t (0 : Fin 3) * 1 + 1 * u.val = t.val; omega
    | ⟨1, _⟩ => show win0_3.index t (1 : Fin 3) * 1024 + 1 * r.val = r.val; omega
    | ⟨2, _⟩ => show win0_3.index t (2 : Fin 3) * 768 + 1 * e.val = e.val; omega
  show out0_A_3 c (grid0.coords t) (ms0_0 t) (hs0_0 t) (ms0_1 t) (hs0_1 t) (ms0_2 t) (hs0_2 t) (ms0_3 t) (hs0_3 t) scM0_0
      (Memref.isWhole_whole _) (iblk m c 0 t) (iblk m c 1 t) (iblk m c 2 t) (ix3 u r e)
    = result m c (((cfg0.win 3).blk t).view.emb (ix3 u r e))
  rw [hi]
  have ho := out_at (F := Ideal) c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) ⟨e.val / 64, hlt⟩
    (ix3 u r (⟨e.val % 64, Nat.mod_lt _ (by decide)⟩ : Fin 64))
  rw [← hy] at ho
  refine ho.trans ?_
  exact head_value (argX m c) (argW m c) (argB m c) (bOf t) _ (proj_at m c t) ⟨e.val / 64, hlt⟩ ⟨e.val / 64, by omega⟩ rfl u r _

/-- An index of the result array is in point t's block iff each coordinate is in the block's range on its axis. -/
theorem mem_blk (t : Fin cfg0.N) (i : S8x1024x768.Idx) :
    i ∈ ((cfg0.win 3).blk t).view.set ↔ ∀ a : Fin 3, win0_3.index t a * S1x1024x768.size a ≤ (i a).val
      ∧ (i a).val < win0_3.index t a * S1x1024x768.size a + S1x1024x768.size a := by
  show i ∈ ((View.whole main_v8).slice (win0_3.rect t)).set ↔ _
  rw [View.set_slice_whole, Rect.mem_set_unit]
  exact Iff.rfl

/-- Every index of the result array is in the block of the point of its batch. -/
theorem cover (i : S8x1024x768.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 768 := (i 2).isLt
  have hN : grid0.N = 8 := N_0
  obtain ⟨t, ht⟩ : ∃ t : Fin cfg0.N, t.val = (i 0).val :=
    ⟨⟨(i 0).val, by show (i 0).val < grid0.N; omega⟩, rfl⟩
  refine ⟨t, flush0_3 t, ?_⟩
  rw [mem_blk]
  obtain ⟨-, -, -, -, -, -, -, e0, e1, e2⟩ := idx_facts t
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 768 ≤ (i 2).val ∧ (i 2).val < win0_3.index t (2 : Fin 3) * 768 + 768
    omega

/-- THE RESULT ARRAY after the run is the attention output of the arguments. -/
theorem final (c : Dev nD) : (dats m 0 c).arrAt 3 cfg0.N = result m c :=
  (dats m 0 c).arrAt_eq_of_cover 3 (result m c) (fun t _ => flushed_eq m c t) cover

/-- The kernel's run: the result array at the attention output of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.AttnValue

end
-- ==== Proof.RefValue.lean ====
/-
  The reference program's result, read stage by stage, is the attention output with each weight divided by the
  row's total before the weighted sum.

  Each stage of the program is read at an index built from explicit coordinates (batch b, head h, rows n and n',
  feature j, projection column e), so that the composed index maps of the reshapes, slices and transposes reduce
  to arithmetic on those coordinates: the fused projection's column of component c of feature j of head h is
  192·h + 3·j + c, and the result's column 64·h + j holds feature j of head h.
-/
import proofs.«118227_j16131897164364_2_alg».proof.Proof.Gen.ReferenceIdeal.Read
import proofs.«118227_j16131897164364_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.Attn Idealize.ShloMosaic Idealize.ShloMosaic.ValueIdx

variable (x0 : (⟨S8x1024x768, .f32⟩ : BufTy).Contents (Elt Ideal))
  (x1 : (⟨S768x2304, .f32⟩ : BufTy).Contents (Elt Ideal))
  (x2 : (⟨S2304, .f32⟩ : BufTy).Contents (Elt Ideal))

/-! ## The index maps on explicit coordinates -/

/-- The contraction of the projection reads row (b, n) of the activations at position k. -/
theorem lidx0 (b : Fin 8) (n : Fin 1024) (e : Fin 2304) (k : Fin 768) :
    lidx_main_v0 (ix3 b n e) k = ix3 b n k := by
  funext a; match a with | ⟨0, _⟩ => rfl | ⟨1, _⟩ => rfl | ⟨2, _⟩ => rfl

/-- … and column e of the weight at position k. -/
theorem ridx0 (b : Fin 8) (n : Fin 1024) (e : Fin 2304) (k : Fin 768) :
    ridx_main_v0 (ix3 b n e) k = ix2 k e := by
  funext a; match a with | ⟨0, _⟩ => rfl | ⟨1, _⟩ => rfl

/-- The bias is broadcast along batch and row: position (b, n, e) reads entry e. -/
theorem idx12 (b : Fin 8) (n : Fin 1024) (e : Fin 2304) :
    idx_main_v1 (idx_main_v2 (ix3 b n e)) = ix1 e := by
  funext a; match a with | ⟨0, _⟩ => rfl

/-- The fused projection at (b, n, e). -/
theorem v3_eq (b : Fin 8) (n : Fin 1024) (e : Fin 2304) :
    val_main_v3 (F := Ideal) x0 x1 x2 (ix3 b n e) = proj x0 x1 x2 b n e := by
  rw [val_main_v3_apply, val_main_v0_apply, val_main_v2_apply, val_main_v1_apply, idx12]
  unfold proj
  refine congrArg (· + x2 (ix1 e)) (Finset.sum_congr rfl fun k _ => ?_)
  rw [lidx0, ridx0]

/-- Swapping the head and row axes. -/
theorem idx7 (b : Fin 8) (h : Fin 12) (n : Fin 1024) (j : Fin 64) :
    idx_main_v7 (ix4 b h n j) = ix4 b n h j := by
  funext a; match a with | ⟨0, _⟩ => rfl | ⟨1, _⟩ => rfl | ⟨2, _⟩ => rfl | ⟨3, _⟩ => rfl

/-- Dropping a trailing axis of extent one keeps the four coordinates. -/
theorem idx6 (b : Fin 8) (n : Fin 1024) (h : Fin 12) (j : Fin 64) :
    idx_main_v6 (ix4 b n h j) = ix5 b n h j (0 : Fin 1) := by
  have hb := b.isLt; have hn := n.isLt; have hh := h.isLt; have hj := j.isLt
  funext a
  match a with
  | ⟨0, _⟩ => exact Fin.ext (by show (((b.val * 1024 + n.val) * 12 + h.val) * 64 + j.val) / 786432 = b.val; omega)
  | ⟨1, _⟩ => exact Fin.ext (by show (((b.val * 1024 + n.val) * 12 + h.val) * 64 + j.val) / 768 % 1024 = n.val; omega)
  | ⟨2, _⟩ => exact Fin.ext (by show (((b.val * 1024 + n.val) * 12 + h.val) * 64 + j.val) / 64 % 12 = h.val; omega)
  | ⟨3, _⟩ => exact Fin.ext (by show (((b.val * 1024 + n.val) * 12 + h.val) * 64 + j.val) / 1 % 64 = j.val; omega)
  | ⟨4, _⟩ => rfl

/-- The three slices of the last axis pick components 0, 1 and 2. -/
theorem idx5 (b : Fin 8) (n : Fin 1024) (h : Fin 12) (j : Fin 64) :
    idx_main_v5 (ix5 b n h j (0 : Fin 1)) = ix5 b n h j (0 : Fin 3) := by
  funext a; match a with | ⟨0, _⟩ => rfl | ⟨1, _⟩ => rfl | ⟨2, _⟩ => rfl | ⟨3, _⟩ => rfl | ⟨4, _⟩ => rfl
theorem idx8 (b : Fin 8) (n : Fin 1024) (h : Fin 12) (j : Fin 64) :
    idx_main_v8 (ix5 b n h j (0 : Fin 1)) = ix5 b n h j (1 : Fin 3) := by
  funext a; match a with | ⟨0, _⟩ => rfl | ⟨1, _⟩ => rfl | ⟨2, _⟩ => rfl | ⟨3, _⟩ => rfl | ⟨4, _⟩ => rfl
theorem idx11 (b : Fin 8) (n : Fin 1024) (h : Fin 12) (j : Fin 64) :
    idx_main_v11 (ix5 b n h j (0 : Fin 1)) = ix5 b n h j (2 : Fin 3) := by
  funext a; match a with | ⟨0, _⟩ => rfl | ⟨1, _⟩ => rfl | ⟨2, _⟩ => rfl | ⟨3, _⟩ => rfl | ⟨4, _⟩ => rfl

/-- Splitting the 2304 columns as 12 × 64 × 3: entry (h, j, c) is column 192·h + 3·j + c. -/
theorem idx4 (b : Fin 8) (n : Fin 1024) (h : Fin 12) (j : Fin 64) (c : Fin 3) :
    idx_main_v4 (ix5 b n h j c) = ix3 b n (col h j c) := by
  have hb := b.isLt; have hn := n.isLt; have hh := h.isLt; have hj := j.isLt; have hc := c.isLt
  funext a
  match a with
  | ⟨0, _⟩ => exact Fin.ext (by show ((((b.val * 1024 + n.val) * 12 + h.val) * 64 + j.val) * 3 + c.val) / 2359296 = b.val; omega)
  | ⟨1, _⟩ => exact Fin.ext (by show ((((b.val * 1024 + n.val) * 12 + h.val) * 64 + j.val) * 3 + c.val) / 2304 % 1024 = n.val; omega)
  | ⟨2, _⟩ => exact Fin.ext (by show ((((b.val * 1024 + n.val) * 12 + h.val) * 64 + j.val) * 3 + c.val) % 2304 = h.val * 192 + j.val * 3 + c.val; omega)

/-! ## The three components of the projection, per head -/

/-- The query component. -/
theorem v7_eq (b : Fin 8) (h : Fin 12) (n : Fin 1024) (j : Fin 64) :
    val_main_v7 (F := Ideal) x0 x1 x2 (ix4 b h n j) = proj x0 x1 x2 b n (col h j 0) := by
  rw [val_main_v7_apply, idx7, val_main_v6_apply, idx6, val_main_v5_apply, idx5, val_main_v4_apply, idx4, v3_eq]

/-- The key component. -/
theorem v10_eq (b : Fin 8) (h : Fin 12) (n : Fin 1024) (j : Fin 64) :
    val_main_v10 (F := Ideal) x0 x1 x2 (ix4 b h n j) = proj x0 x1 x2 b n (col h j 1) := by
  rw [val_main_v10_apply, show idx_main_v10 (ix4 b h n j) = ix4 b n h j from idx7 b h n j, val_main_v9_apply,
    show idx_main_v9 (ix4 b n h j) = ix5 b n h j (0 : Fin 1) from idx6 b n h j, val_main_v8_apply, idx8,
    val_main_v4_apply, idx4, v3_eq]

/-- The value component. -/
theorem v13_eq (b : Fin 8) (h : Fin 12) (n : Fin 1024) (j : Fin 64) :
    val_main_v13 (F := Ideal) x0 x1 x2 (ix4 b h n j) = proj x0 x1 x2 b n (col h j 2) := by
  rw [val_main_v13_apply, show idx_main_v13 (ix4 b h n j) = ix4 b n h j from idx7 b h n j, val_main_v12_apply,
    show idx_main_v12 (ix4 b n h j) = ix5 b n h j (0 : Fin 1) from idx6 b n h j, val_main_v11_apply, idx11,
    val_main_v4_apply, idx4, v3_eq]

/-! ## Scores, row maxima, weights -/

theorem lidx14 (b : Fin 8) (h : Fin 12) (n n' : Fin 1024) (k : Fin 64) :
    lidx_main_v14 (ix4 b h n n') k = ix4 b h n k := by
  funext a; match a with | ⟨0, _⟩ => rfl | ⟨1, _⟩ => rfl | ⟨2, _⟩ => rfl | ⟨3, _⟩ => rfl

theorem ridx14 (b : Fin 8) (h : Fin 12) (n n' : Fin 1024) (k : Fin 64) :
    ridx_main_v14 (ix4 b h n n') k = ix4 b h n' k := by
  funext a; match a with | ⟨0, _⟩ => rfl | ⟨1, _⟩ => rfl | ⟨2, _⟩ => rfl | ⟨3, _⟩ => rfl

/-- The scaled score of query row n against key row n'. -/
theorem v16_eq (b : Fin 8) (h : Fin 12) (n n' : Fin 1024) :
    val_main_v16 (F := Ideal) x0 x1 x2 (ix4 b h n n') = score x0 x1 x2 b h n n' := by
  rw [val_main_v16_apply, val_main_v14_apply, val_main_v15_apply, val_main_cst_apply]
  unfold score scale
  refine congrArg (· * Ideal.ofBits .f32 0x3D13CD3A#32) (Finset.sum_congr rfl fun k _ => ?_)
  rw [lidx14, ridx14, v7_eq, v10_eq]

/-- The pattern a row maximum starts from denotes -∞, the least extended real. -/
theorem max_negInf (y : EReal) : max negInf y = y := by
  unfold negInf; simp [Ideal.ofBits, Ideal.ieee]

/-- A row's index with key row k put back on the reduced axis. -/
theorem lift17 (hR : S8x12x1024x1024.Reduces [3] S8x12x1024) (b : Fin 8) (h : Fin 12) (n : Fin 1024)
    (k : Fin (S8x12x1024x1024.size 3)) :
    hR.lift (ix3 b h n) k = ix4 b h n (⟨k.val, k.isLt⟩ : Fin 1024) := by
  funext c; apply Fin.ext
  fin_cases c <;> rfl

/-- The reduction with a maximum body over the key rows is the fold of the maximum over them. -/
theorem v17_eq (b : Fin 8) (h : Fin 12) (n : Fin 1024) :
    val_main_v17 (F := Ideal) x0 x1 x2 (ix3 b h n) = rowMax x0 x1 x2 b h n := by
  have hR : S8x12x1024x1024.Reduces [3] S8x12x1024 := by decide
  unfold val_main_v17
  refine (Host.reduce_eq_fold_single (α := Ideal .f32) (FloatOps.maximumf (F := Ideal) (φ := .f32))
    (val_main_v16 (F := Ideal) x0 x1 x2) (val_main_cst_0 (F := Ideal))
    Gen.reducesTo_S8x12x1024x1024_S8x12x1024_d3 hR Gen.h_S_ (ix3 b h n)).trans ?_
  unfold rowMax
  have hf : (val_main_v16 (F := Ideal) x0 x1 x2 ∘ hR.lift (ix3 b h n))
      = fun n' : Fin 1024 => score x0 x1 x2 b h n n' :=
    funext fun k => (congrArg (val_main_v16 (F := Ideal) x0 x1 x2) (lift17 hR b h n k)).trans (v16_eq x0 x1 x2 b h n _)
  exact congrArg (fun f => Finset.fold max negInf f (Finset.univ : Finset (Fin 1024))) hf

/-- Taking the maximum with -∞ once more changes nothing. -/
theorem v19_eq (b : Fin 8) (h : Fin 12) (n : Fin 1024) :
    val_main_v19 (F := Ideal) x0 x1 x2 (ix3 b h n) = rowMax x0 x1 x2 b h n := by
  rw [val_main_v19_apply, val_main_v18_apply, val_main_cst_1_apply, v17_eq]
  exact max_negInf _

/-- A row's maximum, and likewise its total, is broadcast along the key rows. -/
theorem idx2021 (b : Fin 8) (h : Fin 12) (n n' : Fin 1024) :
    idx_main_v20 (idx_main_v21 (ix4 b h n n')) = ix3 b h n := by
  funext a; match a with | ⟨0, _⟩ => rfl | ⟨1, _⟩ => rfl | ⟨2, _⟩ => rfl

/-- The weight of key row n' for query row n. -/
theorem v23_eq (b : Fin 8) (h : Fin 12) (n n' : Fin 1024) :
    val_main_v23 (F := Ideal) x0 x1 x2 (ix4 b h n n') = weight x0 x1 x2 b h n n' := by
  rw [val_main_v23_apply, val_main_v22_apply, val_main_v21_apply, val_main_v20_apply, idx2021, v16_eq, v19_eq]
  rfl

theorem idx24 (b : Fin 8) (h : Fin 12) (n : Fin 1024) (k : Fin 1024) :
    idx_main_v24 (ix3 b h n) k = ix4 b h n k := by
  funext a; match a with | ⟨0, _⟩ => rfl | ⟨1, _⟩ => rfl | ⟨2, _⟩ => rfl | ⟨3, _⟩ => rfl

/-- The total of a query row's weights: the sum starts from the pattern of zero. -/
theorem v24_eq (b : Fin 8) (h : Fin 12) (n : Fin 1024) :
    val_main_v24 (F := Ideal) x0 x1 x2 (ix3 b h n) = denom x0 x1 x2 b h n := by
  rw [val_main_v24_apply, val_main_cst_2_apply]
  show Ideal.ofBits .f32 0x00000000#32 + _ = _
  rw [Ideal.ofBits_zero_f32, zero_add]
  unfold denom
  refine Finset.sum_congr rfl fun k _ => ?_
  rw [idx24, v23_eq]

/-- Each weight divided by its row's total. -/
theorem v27_eq (b : Fin 8) (h : Fin 12) (n n' : Fin 1024) :
    val_main_v27 (F := Ideal) x0 x1 x2 (ix4 b h n n')
      = Ideal.div (weight x0 x1 x2 b h n n') (denom x0 x1 x2 b h n) := by
  rw [val_main_v27_apply, val_main_v26_apply, val_main_v25_apply,
    show idx_main_v25 (idx_main_v26 (ix4 b h n n')) = ix3 b h n from idx2021 b h n n', v23_eq, v24_eq]
  rfl

/-! ## The weighted sum of the value rows, and the result's layout -/

theorem lidx28 (b : Fin 8) (h : Fin 12) (n : Fin 1024) (j : Fin 64) (k : Fin 1024) :
    lidx_main_v28 (ix4 b h n j) k = ix4 b h n k := by
  funext a; match a with | ⟨0, _⟩ => rfl | ⟨1, _⟩ => rfl | ⟨2, _⟩ => rfl | ⟨3, _⟩ => rfl

theorem ridx28 (b : Fin 8) (h : Fin 12) (n : Fin 1024) (j : Fin 64) (k : Fin 1024) :
    ridx_main_v28 (ix4 b h n j) k = ix4 b h k j := by
  funext a; match a with | ⟨0, _⟩ => rfl | ⟨1, _⟩ => rfl | ⟨2, _⟩ => rfl | ⟨3, _⟩ => rfl

/-- Feature j of head h's output row n, each weight normalised before the sum. -/
theorem v28_eq (b : Fin 8) (h : Fin 12) (n : Fin 1024) (j : Fin 64) :
    val_main_v28 (F := Ideal) x0 x1 x2 (ix4 b h n j) = headOutPre x0 x1 x2 b h n j := by
  rw [val_main_v28_apply]
  unfold headOutPre
  refine Finset.sum_congr rfl fun k _ => ?_
  rw [lidx28, ridx28, v27_eq, v13_eq]

/-- The head of result column e, and the feature within it. -/
def headOfCol (e : Fin 768) : Fin 12 := ⟨e.val / 64, by have := e.isLt; omega⟩
def featOfCol (e : Fin 768) : Fin 64 := ⟨e.val % 64, Nat.mod_lt _ (by decide)⟩

/-- Merging the head and feature axes after moving the row axis in front of the head axis:
    result position (b, n, e) reads head e / 64, row n, feature e % 64. -/
theorem idx2930 (b : Fin 8) (n : Fin 1024) (e : Fin 768) :
    idx_main_v29 (idx_main_v30 (ix3 b n e)) = ix4 b (headOfCol e) n (featOfCol e) := by
  have hb := b.isLt; have hn := n.isLt; have he := e.isLt
  funext a
  match a with
  | ⟨0, _⟩ => exact Fin.ext (by show ((b.val * 1024 + n.val) * 768 + e.val) / 786432 = b.val; omega)
  | ⟨1, _⟩ => exact Fin.ext (by show ((b.val * 1024 + n.val) * 768 + e.val) / 64 % 12 = e.val / 64; omega)
  | ⟨2, _⟩ => exact Fin.ext (by show ((b.val * 1024 + n.val) * 768 + e.val) / 768 % 1024 = n.val; omega)
  | ⟨3, _⟩ => exact Fin.ext (by show ((b.val * 1024 + n.val) * 768 + e.val) % 64 = e.val % 64; omega)

/-- The result at position (b, n, e). -/
theorem v30_eq (b : Fin 8) (n : Fin 1024) (e : Fin 768) :
    val_main_v30 (F := Ideal) x0 x1 x2 (ix3 b n e) = attnPre x0 x1 x2 (ix3 b n e) := by
  rw [val_main_v30_apply, val_main_v29_apply, idx2930, v28_eq]
  rfl

/-- The reference program's result is the attention output with each weight normalised before the sum. -/
theorem ref_eq (x0 : (⟨Cert.ReferenceIdeal.S8x1024x768, .f32⟩ : BufTy).Contents (Elt Ideal))
    (x1 : (⟨Cert.ReferenceIdeal.S768x2304, .f32⟩ : BufTy).Contents (Elt Ideal))
    (x2 : (⟨Cert.ReferenceIdeal.S2304, .f32⟩ : BufTy).Contents (Elt Ideal)) :
    Cert.ReferenceIdeal.Read.val_main_v30 (F := Ideal) x0 x1 x2 = Cert.Attn.attnPre x0 x1 x2 := by
  funext i
  rw [eq_ix3 i]
  exact v30_eq x0 x1 x2 (i 0) (i 1) (i 2)

end Cert.ReferenceIdeal.RefValue

end
-- ==== Proof.MeanLaw.lean ====
/-
  The two arrangements of the weighted mean agree on real data.

  On the extended reals the distributive law x · (a + b) = x · a + x · b and the cancellation of a common factor
  fail at the infinities, so the identity (Σ p · v) / l = Σ (p / l) · v is proved where every quantity is a real
  number and the total l is not zero. Under the hypothesis that the three argument arrays hold real numbers:
  every projected entry is a real (a finite sum of products of reals plus a real); every score is a real (the
  scale is a finite pattern, hence a real); every row maximum is a real (the largest of finitely many, and at least
  one, reals, the fold starting from -∞); every weight is the exponential of a real, a strictly positive real; and
  the total of a row's weights is a sum of strictly positive reals over a nonempty index set, so a strictly
  positive real. Both arrangements are then coercions of one and the same real number.
-/
import proofs.«118227_j16131897164364_2_alg».proof.Proof.Spec

noncomputable section

namespace Cert.Attn

open Idealize.ShloMosaic Idealize.ShloMosaic.ValueIdx

/-! ### Real and strictly positive real elements of the extended reals -/

/-- An extended real that is a real number. -/
def IsReal (x : EReal) : Prop := ∃ r : ℝ, x = (r : EReal)

/-- An extended real that is a strictly positive real number. -/
def IsPosReal (x : EReal) : Prop := ∃ r : ℝ, 0 < r ∧ x = (r : EReal)

theorem IsPosReal.isReal {x : EReal} (h : IsPosReal x) : IsReal x := by
  obtain ⟨r, _, rfl⟩ := h; exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The larger of two reals is one of them. -/
theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- The exponential of a real is a strictly positive real. -/
theorem IsReal.exp_pos {x : EReal} (hx : IsReal x) : IsPosReal (Ideal.exp x) := by
  obtain ⟨a, rfl⟩ := hx; exact ⟨Real.exp a, Real.exp_pos a, Ideal.exp_coe a⟩

/-- The coercion of the reals into the extended reals commutes with finite sums. -/
theorem coe_finsum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A finite sum of reals is a real. -/
theorem isReal_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- Folding the maximum over reals, starting from -∞, stays at -∞ or reaches a real. -/
theorem fold_max_bot_or_real {ι : Type*} (f : ι → EReal) (s : Finset ι) (h : ∀ i ∈ s, IsReal (f i)) :
    s.fold max ⊥ f = ⊥ ∨ IsReal (s.fold max ⊥ f) := by
  classical
  induction s using Finset.induction_on with
  | empty => left; simp
  | insert a s ha ih =>
    right
    rw [Finset.fold_insert ha]
    have hfa : IsReal (f a) := h a (Finset.mem_insert_self a s)
    rcases ih (fun i hi => h i (Finset.mem_insert_of_mem hi)) with hb | hr
    · rw [hb, max_eq_left bot_le]; exact hfa
    · exact hfa.max hr

/-- Over a nonempty index set the fold of the maximum over reals, starting from -∞, is a real. -/
theorem isReal_fold_max {ι : Type*} (f : ι → EReal) (s : Finset ι) (hs : s.Nonempty)
    (h : ∀ i ∈ s, IsReal (f i)) : IsReal (s.fold max ⊥ f) := by
  classical
  obtain ⟨a, ha⟩ := hs
  rw [← Finset.insert_erase ha, Finset.fold_insert (Finset.notMem_erase a s)]
  have hfa : IsReal (f a) := h a ha
  rcases fold_max_bot_or_real f (s.erase a) (fun i hi => h i (Finset.mem_of_mem_erase hi)) with hb | hr
  · rw [hb, max_eq_left bot_le]; exact hfa
  · exact hfa.max hr

/-! ### The law of the weighted mean, for families over a finite index set -/

/-- For strictly positive real weights p over a nonempty index set and real values v, dividing each weight by the
    total before the sum and dividing the weighted sum by the total give the same result. -/
theorem sum_div_mul_eq_div_sum {N : ℕ} (hN : 0 < N) (p v : Fin N → EReal)
    (hp : ∀ k, IsPosReal (p k)) (hv : ∀ k, IsReal (v k)) :
    ∑ k, Ideal.div (p k) (∑ k, p k) * v k = Ideal.div (∑ k, p k * v k) (∑ k, p k) := by
  choose g hg0 hg using hp
  choose w hw using hv
  obtain rfl : p = fun k => (g k : EReal) := funext hg
  obtain rfl : v = fun k => (w k : EReal) := funext hw
  have hpos : 0 < ∑ k, g k := Finset.sum_pos (fun k _ => hg0 k) ⟨⟨0, hN⟩, Finset.mem_univ _⟩
  simp only [coe_finsum, Ideal.div_coe hpos.ne', ← EReal.coe_mul]
  rw [EReal.coe_eq_coe_iff, Finset.sum_mul]
  exact Finset.sum_congr rfl fun k _ => by ring

/-! ### The quantities of the specification on real arguments -/

/-- The scale of the scores is a finite pattern, so a real number. -/
theorem isReal_scale : IsReal scale := by
  unfold scale IsReal
  simp [Ideal.ofBits, Ideal.ieee, -EReal.coe_mul]

/-- The pattern of -∞ denotes the least extended real. -/
theorem negInf_eq_bot : negInf = ⊥ := by
  simp [negInf, Ideal.ofBits, Ideal.ieee]

variable (X : SX.Idx → EReal) (W : SW.Idx → EReal) (B : SB.Idx → EReal)

/-- Every entry of the fused projection of real arguments is a real. -/
theorem isReal_proj (hX : ∀ i, ∃ r : ℝ, X i = (r : EReal)) (hW : ∀ i, ∃ r : ℝ, W i = (r : EReal))
    (hB : ∀ i, ∃ r : ℝ, B i = (r : EReal)) (b : Fin 8) (n : Fin 1024) (e : Fin 2304) :
    ∃ r : ℝ, proj X W B b n e = (r : EReal) :=
  IsReal.add (isReal_sum _ _ fun d _ => IsReal.mul (hX _) (hW _)) (hB _)

/-- Every score of real arguments is a real. -/
theorem isReal_score (hX : ∀ i, ∃ r : ℝ, X i = (r : EReal)) (hW : ∀ i, ∃ r : ℝ, W i = (r : EReal))
    (hB : ∀ i, ∃ r : ℝ, B i = (r : EReal)) (b : Fin 8) (h : Fin 12) (n n' : Fin 1024) :
    ∃ r : ℝ, score X W B b h n n' = (r : EReal) :=
  IsReal.mul (isReal_sum _ _ fun j _ =>
    IsReal.mul (isReal_proj X W B hX hW hB b n _) (isReal_proj X W B hX hW hB b n' _)) isReal_scale

/-- Every row maximum of real arguments is a real: there are 1024 scores, at least one. -/
theorem isReal_rowMax (hX : ∀ i, ∃ r : ℝ, X i = (r : EReal)) (hW : ∀ i, ∃ r : ℝ, W i = (r : EReal))
    (hB : ∀ i, ∃ r : ℝ, B i = (r : EReal)) (b : Fin 8) (h : Fin 12) (n : Fin 1024) :
    ∃ r : ℝ, rowMax X W B b h n = (r : EReal) := by
  unfold rowMax
  rw [negInf_eq_bot]
  exact isReal_fold_max _ _ ⟨0, Finset.mem_univ _⟩ fun n' _ => isReal_score X W B hX hW hB b h n n'

/-- Every weight of real arguments is a strictly positive real. -/
theorem isPosReal_weight (hX : ∀ i, ∃ r : ℝ, X i = (r : EReal)) (hW : ∀ i, ∃ r : ℝ, W i = (r : EReal))
    (hB : ∀ i, ∃ r : ℝ, B i = (r : EReal)) (b : Fin 8) (h : Fin 12) (n n' : Fin 1024) :
    ∃ r : ℝ, 0 < r ∧ weight X W B b h n n' = (r : EReal) :=
  IsReal.exp_pos (IsReal.sub (isReal_score X W B hX hW hB b h n n') (isReal_rowMax X W B hX hW hB b h n))

/-- On real arguments the two arrangements of the weighted mean give the same attention output. -/
theorem attnPre_eq_attn (X : Cert.Attn.SX.Idx → EReal) (W : Cert.Attn.SW.Idx → EReal) (B : Cert.Attn.SB.Idx → EReal)
    (hX : ∀ i, ∃ r : ℝ, X i = (r : EReal)) (hW : ∀ i, ∃ r : ℝ, W i = (r : EReal))
    (hB : ∀ i, ∃ r : ℝ, B i = (r : EReal)) :
    Cert.Attn.attnPre X W B = Cert.Attn.attn X W B := by
  funext i
  unfold attnPre attn headOutPre headOut denom
  exact sum_div_mul_eq_div_sum (by norm_num) _ _
    (fun n' => isPosReal_weight X W B hX hW hB (i 0) (headOf i) (i 1) n')
    (fun n' => isReal_proj X W B hX hW hB (i 0) n' _)

end Cert.Attn

end
-- ==== Proof.FiniteArgs.lean ====
/-
  The precondition read back: every entry of the three argument arrays is a real number.

  For each argument the precondition takes the absolute value entry by entry, compares it "less than" against +∞,
  and takes the conjunction of all the comparisons; the three conjunctions are and-ed and the result is required
  to be true. A conjunction over all axes that is true had a true comparison at every index, so |x| < +∞ at every
  entry x. On the extended reals |x| is the larger of x and -x: for x = -∞ and for x = +∞ it is +∞, which is not
  below +∞; so x is neither, and an extended real that is neither infinity is a real number.
-/
import proofs.«118227_j16131897164364_2_alg».proof.Proof.Gen.Pre_finite_inputs
import Idealize.ShloMosaic.Lib.ReduceAll
import Idealize.ShloMosaic.Lib.ValueIdx
import Idealize.ShloMosaic.PureOps.Ideal

noncomputable section

namespace Cert.Attn

open Idealize.ShloMosaic

/-- The pattern 0x7F800000 denotes +∞. -/
theorem posInf_eq_top : Ideal.ofBits .f32 0x7F800000#32 = (⊤ : EReal) := by
  simp [Ideal.ofBits, Ideal.ieee]

/-- An extended real whose absolute value is strictly below +∞ is a real number. -/
theorem real_of_abs_lt_posInf (x : EReal)
    (h : Ideal.cmp .olt (max x (-x)) (Ideal.ofBits .f32 0x7F800000#32) = 1#1) : ∃ r : ℝ, x = (r : EReal) := by
  rw [posInf_eq_top] at h
  induction x using EReal.rec with
  | bot => simp [Ideal.cmp] at h
  | coe r => exact ⟨r, rfl⟩
  | top => simp [Ideal.cmp] at h

/-- Where the precondition holds, the three argument arrays hold real numbers. -/
theorem reals_of_pre [hP : Cert.Pre_finite_inputs.Facts]
    (a0 : FVec Ideal Cert.Pre_finite_inputs.S8x1024x768 .f32) (a1 : FVec Ideal Cert.Pre_finite_inputs.S768x2304 .f32)
    (a2 : FVec Ideal Cert.Pre_finite_inputs.S2304 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  -- the result has no axes, so one index
  haveI : Subsingleton Cert.Pre_finite_inputs.S_.Idx := ⟨fun a b => funext fun d => d.elim0⟩
  have e := congrFun h ValueIdx.ix0
  dsimp only [Cert.Pre_finite_inputs.fn] at e
  simp only [andi] at e
  rw [IntOp.andi_eq_one, IntOp.andi_eq_one] at e
  obtain ⟨⟨e0, e1⟩, e2⟩ := e
  refine ⟨fun i => ?_, fun i => ?_, fun i => ?_⟩
  · exact real_of_abs_lt_posInf _ (Host.reduce_andi_all _ _ _ _ _ e0 i)
  · exact real_of_abs_lt_posInf _ (Host.reduce_andi_all _ _ _ _ _ e1 i)
  · exact real_of_abs_lt_posInf _ (Host.reduce_andi_all _ _ _ _ _ e2 i)

end Cert.Attn

end
-- ==== Proof.lean ====
/-
  Fused query/key/value projection and twelve-head softmax attention over f32[8, 1024, 768]: a fused accelerator kernel against
  its array-level reference, equal as extended reals for finite inputs.

  Both programs compute, for batch b, head h, query row n and feature j,
      out(b, n, 64·h + j) = Σ_n' w(n, n') · v(n', j),   w(n, n') = exp (s(n, n') - max s(n, ·)) / Σ_n'' exp (s(n, n'') - max s(n, ·)),
  with scores s(n, n') = (Σ_j q(n, j) · k(n', j)) · scale and q, k, v the three interleaved components of the projection
  x(b) · W + bias. They differ in three ways, none of which changes the value at the ideal instance:
    * the kernel un-interleaves the components once on the weight and bias (a permutation of columns) instead of on the
      projected activations;
    * the kernel rounds operands of its matrix products to a narrower format (the identity on extended reals);
    * the kernel divides the weighted sum by the weights' total, where the reference divides each weight by the total
      first. The two agree when the total is a nonzero real and every term is real: this is where the precondition that
      the inputs are finite is used (the scores are then real, the row maximum of 1024 reals is real, each weight is a
      positive real, and so is their total).
  The kernel's result array is read off its generated frame run: the twelve stores of the loop over heads tile each
  output block, and the eight blocks tile the array (AttnValue). The reference's result is read off its generated run,
  operation by operation (RefValue). The ideal pass rewrote nothing, so the kernel's idealization is its own text.
-/
import proofs.«118227_j16131897164364_2_alg».proof.Defs
import proofs.«118227_j16131897164364_2_alg».proof.Proof.Gen.Kernel
import proofs.«118227_j16131897164364_2_alg».proof.Proof.Gen.Kernel.Skeleton
import proofs.«118227_j16131897164364_2_alg».proof.Proof.Gen.Kernel.Loops
import proofs.«118227_j16131897164364_2_alg».proof.Proof.Gen.Kernel.Launch
import proofs.«118227_j16131897164364_2_alg».proof.Proof.Gen.Kernel.Points
import proofs.«118227_j16131897164364_2_alg».proof.Proof.Gen.Kernel.Frame
import proofs.«118227_j16131897164364_2_alg».proof.Proof.Gen.KernelIdeal
import proofs.«118227_j16131897164364_2_alg».proof.Proof.Gen.KernelIdeal.Skeleton
import proofs.«118227_j16131897164364_2_alg».proof.Proof.Gen.KernelIdeal.Loops
import proofs.«118227_j16131897164364_2_alg».proof.Proof.Gen.KernelIdeal.Launch
import proofs.«118227_j16131897164364_2_alg».proof.Proof.Gen.KernelIdeal.Points
import proofs.«118227_j16131897164364_2_alg».proof.Proof.Gen.KernelIdeal.Frame
import proofs.«118227_j16131897164364_2_alg».proof.Proof.Gen.ReferenceIdeal
import proofs.«118227_j16131897164364_2_alg».proof.Proof.Gen.Pre_finite_inputs
import proofs.«118227_j16131897164364_2_alg».proof.Proof.Gen.KernelIdeal.Value
import proofs.«118227_j16131897164364_2_alg».proof.Proof.Gen.ReferenceIdeal.Run
import proofs.«118227_j16131897164364_2_alg».proof.Proof.Gen.ReferenceIdeal.Read
import proofs.«118227_j16131897164364_2_alg».proof.Proof.AttnValue
import proofs.«118227_j16131897164364_2_alg».proof.Proof.RefValue
import proofs.«118227_j16131897164364_2_alg».proof.Proof.MeanLaw
import proofs.«118227_j16131897164364_2_alg».proof.Proof.FiniteArgs
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result is the attention output with the weighted sum divided by the total; the reference's is the same
    with each weight divided first; for real-valued arguments, which the precondition gives, the two are one function. -/
theorem algebraic : Cert.algebraic_KernelIdeal_ReferenceIdeal := by
  intro m ρ m' ρ' hpre hagree
  refine ⟨fun c => Cert.KernelIdeal.AttnValue.result m c, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2,
    Cert.ReferenceIdeal.RefValue.ref_eq]
  obtain ⟨hX, hW, hB⟩ := Cert.Attn.reals_of_pre _ _ _ (hpre c)
  exact Cert.Attn.attnPre_eq_attn _ _ _ hX hW hB

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
